-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v207)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v207) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x500 : Shape := ⟨2, ![50000, 500]⟩
abbrev S2x1600000 : Shape := ⟨2, ![2, 1600000]⟩
abbrev S256x500 : Shape := ⟨2, ![256, 500]⟩
abbrev S256 : Shape := ⟨1, ![256]⟩
abbrev S256x256 : Shape := ⟨2, ![256, 256]⟩
abbrev S48x256 : Shape := ⟨2, ![48, 256]⟩
abbrev S48 : Shape := ⟨1, ![48]⟩
abbrev S_ : Shape := ⟨0, ![]⟩

class Facts : Prop where
  bcast_S_S50000x500 : S_.BroadcastsInDim S50000x500 (![] : Fin 0 → Fin S50000x500.rank)
  reducesTo_S50000x500_S_d0_1 : S50000x500.ReducesTo [0, 1] S_
  h_S_ : 0 < S_.numel
  bcast_S_S256x500 : S_.BroadcastsInDim S256x500 (![] : Fin 0 → Fin S256x500.rank)
  reducesTo_S256x500_S_d0_1 : S256x500.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S48x256 : S_.BroadcastsInDim S48x256 (![] : Fin 0 → Fin S48x256.rank)
  reducesTo_S48x256_S_d0_1 : S48x256.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg5 : FVec F S256 .f32) (main_arg6 : FVec F S48x256 .f32) (main_arg7 : FVec F S48 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S48x256 .f32 := Host.absf main_arg6
  let main_cst_8 : FVec F S_ .f32 := constant S_ .f32 0x7F800000#32
  let main_v25 : FVec F S48x256 .f32 := broadcastInDim S48x256 ![] bcast_S_S48x256 main_cst_8
  let main_v26 : IVec S48x256 1 := cmpf .olt main_v24 main_v25
  let main_c_9 : IVec S_ 1 := constantI S_ 1 1#1
  let main_v27 : IVec S_ 1 := (fun x v => Host.reduce IntOp.andi x v reducesTo_S48x256_S_d0_1 h_S_) main_v26 main_c_9
  let main_v28 : IVec S_ 1 := andi main_v23 main_v27
  let main_v29 : FVec F S48 .f32 := Host.absf main_arg7
  let main_cst_10 : FVec F S_ .f32 := constant S_ .f32 0x7F800000#32
  let main_v30 : FVec F S48 .f32 := broadcastInDim S48 ![] bcast_S_S48 main_cst_10
  let main_v31 : IVec S48 1 := cmpf .olt main_v29 main_v30
  let main_c_11 : IVec S_ 1 := constantI S_ 1 1#1
  let main_v32 : IVec S_ 1 := (fun x v => Host.reduce IntOp.andi x v reducesTo_S48_S_d0 h_S_) main_v31 main_c_11
  let main_v33 : IVec S_ 1 := andi main_v28 main_v32
  main_v33

def fn {F : FTy → Type} [FloatOps F] (main_arg0 : FVec F S50000x500 .f32) (main_arg1 : IVec S2x1600000 32) (main_arg2 : FVec F S256x500 .f32) (main_arg3 : FVec F S256 .f32) (main_arg4 : FVec F S256x256 .f32) (main_arg5 : FVec F S256 .f32) (main_arg6 : FVec F S48x256 .f32) (main_arg7 : FVec F S48 .f32) : IVec S_ 1 :=
  let main_v0 : FVec F S50000x500 .f32 := Host.absf main_arg0
  let main_cst : FVec F S_ .f32 := constant S_ .f32 0x7F800000#32
  let main_v1 : FVec F S50000x500 .f32 := broadcastInDim S50000x500 ![] bcast_S_S50000x500 main_cst
  let main_v2 : IVec S50000x500 1 := cmpf .olt main_v0 main_v1
  let main_c : IVec S_ 1 := constantI S_ 1 1#1
  let main_v3 : IVec S_ 1 := (fun x v => Host.reduce IntOp.andi x v reducesTo_S50000x500_S_d0_1 h_S_) main_v2 main_c
  let main_v4 : FVec F S256x500 .f32 := Host.absf main_arg2
  let main_cst_0 : FVec F S_ .f32 := constant S_ .f32 0x7F800000#32
  let main_v5 : FVec F S256x500 .f32 := broadcastInDim S256x500 ![] bcast_S_S256x500 main_cst_0
  let main_v6 : IVec S256x500 1 := cmpf .olt main_v4 main_v5
  let main_c_1 : IVec S_ 1 := constantI S_ 1 1#1
  let main_v7 : IVec S_ 1 := (fun x v => Host.reduce IntOp.andi x v reducesTo_S256x500_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x500 : Shape := ⟨2, ![50000, 500]⟩
abbrev S2x1600000 : Shape := ⟨2, ![2, 1600000]⟩
abbrev S256x500 : Shape := ⟨2, ![256, 500]⟩
abbrev S256 : Shape := ⟨1, ![256]⟩
abbrev S256x256 : Shape := ⟨2, ![256, 256]⟩
abbrev S48x256 : Shape := ⟨2, ![48, 256]⟩
abbrev S48 : Shape := ⟨1, ![48]⟩
abbrev S500x256 : Shape := ⟨2, ![500, 256]⟩
abbrev S256x48 : Shape := ⟨2, ![256, 48]⟩
abbrev S1x256 : Shape := ⟨2, ![1, 256]⟩
abbrev S1x48 : Shape := ⟨2, ![1, 48]⟩
abbrev S50000x48 : Shape := ⟨2, ![50000, 48]⟩
abbrev S2000x500 : Shape := ⟨2, ![2000, 500]⟩
abbrev S2000x48 : Shape := ⟨2, ![2000, 48]⟩
abbrev S2000x256 : Shape := ⟨2, ![2000, 256]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S1650000x48 : Shape := ⟨2, ![1650000, 48]⟩

abbrev nBuf : Space → Nat
  | .hbm => 276
  | .vmem => 10
  | .smem => 0
  | _ => 0

abbrev hbmTy0_0 (i : Nat) : BufTy := match i % 128 with
  | 0 => ⟨S50000x500, .f32⟩
  | 1 => ⟨S2x1600000, .i32⟩
  | 2 => ⟨S256x500, .f32⟩
  | 3 => ⟨S256, .f32⟩
  | 4 => ⟨S256x256, .f32⟩
  | 5 => ⟨S256, .f32⟩
  | 6 => ⟨S48x256, .f32⟩
  | 7 => ⟨S48, .f32⟩
  | 8 => ⟨S500x256, .f32⟩
  | 9 => ⟨S256x256, .f32⟩
  | 10 => ⟨S256x48, .f32⟩
  | 11 => ⟨S1x256, .f32⟩
  | 12 => ⟨S1x256, .f32⟩
  | 13 => ⟨S1x48, .f32⟩
  | 14 => ⟨S50000x48, .f32⟩
  | 15 => ⟨S1x1600000, .i32⟩
  | 16 => ⟨S1600000, .i32⟩
  | 17 => ⟨S1x1600000, .i32⟩
  | 18 => ⟨S1600000, .i32⟩
  | 19 => ⟨S50000, .i32⟩
  | 20 => ⟨S1650000, .i32⟩
  | 21 => ⟨S1650000, .i32⟩
  | 22 => ⟨S_, .f32⟩
  | 23 => ⟨S1650000, .f32⟩
  | 24 => ⟨S_, .f32⟩
  | 25 => ⟨S50000, .f32⟩
  | 26 => ⟨S1650000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S_, .i32⟩
  | 46 => ⟨S1650000, .i32⟩
  | 47 => ⟨S1650000, .i1⟩
  | 48 => ⟨S_, .i32⟩
  | 49 => ⟨S1650000, .i32⟩
  | 50 => ⟨S1650000, .i32⟩
  | 51 => ⟨S1650000, .i32⟩
  | 52 => ⟨S1650000x1, .i32⟩
  | 53 => ⟨S1650000, .f32⟩
  | 54 => ⟨S1650000, .f32⟩
  | 55 => ⟨S1650000x1, .f32⟩
  | 56 => ⟨S_, .i32⟩
  | 57 => ⟨S1650000, .i32⟩
  | 58 => ⟨S1650000, .i1⟩
  | 59 => ⟨S_, .i32⟩
  | 60 => ⟨S1650000, .i32⟩
  | 61 => ⟨S1650000, .i32⟩
  | 62 => ⟨S1650000, .i32⟩
  | 63 => ⟨S1650000x1, .i32⟩
  | 64 => ⟨S1650000x48, .f32⟩
  | 65 => ⟨S1650000x48, .f32⟩
  | 66 => ⟨S1650000x48, .f32⟩
  | 67 => ⟨S_, .f32⟩
  | 68 => ⟨S50000x48, .f32⟩
  | 69 => ⟨S1650000x1, .i32⟩
  | 70 => ⟨S50000x48, .f32⟩
  | 71 => ⟨S_, .f32⟩
  | 72 => ⟨S50000x48, .f32⟩
  | 73 => ⟨S50000x48, .f32⟩
  | 74 => ⟨S_, .f32⟩
  | 75 => ⟨S50000x48, .f32⟩
  | 76 => ⟨S50000x48, .f32⟩
  | 77 => ⟨S50000x48, .f32⟩
  | 78 => ⟨S_, .i32⟩
  | 79 => ⟨S1650000, .i32⟩
  | 80 => ⟨S1650000, .i1⟩
  | 81 => ⟨S_, .i32⟩
  | 82 => ⟨S1650000, .i32⟩
  | 83 => ⟨S1650000, .i32⟩
  | 84 => ⟨S1650000, .i32⟩
  | 85 => ⟨S1650000x1, .i32⟩
  | 86 => ⟨S1650000x48, .f32⟩
  | 87 => ⟨S1650000x48, .f32⟩
  | 88 => ⟨S1650000x48, .f32⟩
  | 89 => ⟨S_, .f32⟩
  | 90 => ⟨S50000x48, .f32⟩
  | 91 => ⟨S1650000x1, .i32⟩
  | 92 => ⟨S50000x48, .f32⟩
  | 93 => ⟨S_, .f32⟩
  | 94 => ⟨S50000x48, .f32⟩
  | 95 => ⟨S50000x48, .f32⟩
  | 96 => ⟨S_, .f32⟩
  | 97 => ⟨S50000x48, .f32⟩
  | 98 => ⟨S50000x48, .f32⟩
  | 99 => ⟨S50000x48, .f32⟩
  | 100 => ⟨S_, .i32⟩
  | 101 => ⟨S1650000, .i32⟩
  | 102 => ⟨S1650000, .i1⟩
  | 103 => ⟨S_, .i32⟩
  | 104 => ⟨S1650000, .i32⟩
  | 105 => ⟨S1650000, .i32⟩
  | 106 => ⟨S1650000, .i32⟩
  | 107 => ⟨S1650000x1, .i32⟩
  | 108 => ⟨S1650000x48, .f32⟩
  | 109 => ⟨S1650000x48, .f32⟩
  | 110 => ⟨S1650000x48, .f32⟩
  | 111 => ⟨S_, .f32⟩
  | 112 => ⟨S50000x48, .f32⟩
  | 113 => ⟨S1650000x1, .i32⟩
  | 114 => ⟨S50000x48, .f32⟩
  | 115 => ⟨S_, .f32⟩
  | 116 => ⟨S50000x48, .f32⟩
  | 117 => ⟨S50000x48, .f32⟩
  | 118 => ⟨S_, .f32⟩
  | 119 => ⟨S50000x48, .f32⟩
  | 120 => ⟨S50000x48, .f32⟩
  | 121 => ⟨S50000x48, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x500, .f32⟩

abbrev hbmTy0_1 (i : Nat) : BufTy := match i % 128 with
  | 0 => ⟨S1650000, .i32⟩
  | 1 => ⟨S1650000x1, .i32⟩
  | 2 => ⟨S1650000x48, .f32⟩
  | 3 => ⟨S1650000x48, .f32⟩
  | 4 => ⟨S1650000x48, .f32⟩
  | 5 => ⟨S_, .f32⟩
  | 6 => ⟨S50000x48, .f32⟩
  | 7 => ⟨S1650000x1, .i32⟩
  | 8 => ⟨S50000x48, .f32⟩
  | 9 => ⟨S_, .f32⟩
  | 10 => ⟨S50000x48, .f32⟩
  | 11 => ⟨S50000x48, .f32⟩
  | 12 => ⟨S_, .f32⟩
  | 13 => ⟨S50000x48, .f32⟩
  | 14 => ⟨S50000x48, .f32⟩
  | 15 => ⟨S50000x48, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S1650000x48, .f32⟩
  | 25 => ⟨S1650000x48, .f32⟩
  | 26 => ⟨S1650000x48, .f32⟩
  | 27 => ⟨S_, .f32⟩
  | 28 => ⟨S50000x48, .f32⟩
  | 29 => ⟨S1650000x1, .i32⟩
  | 30 => ⟨S50000x48, .f32⟩
  | 31 => ⟨S_, .f32⟩
  | 32 => ⟨S50000x48, .f32⟩
  | 33 => ⟨S50000x48, .f32⟩
  | 34 => ⟨S_, .f32⟩
  | 35 => ⟨S50000x48, .f32⟩
  | 36 => ⟨S50000x48, .f32⟩
  | 37 => ⟨S50000x48, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000x48, .f32⟩
  | 47 => ⟨S1650000x48, .f32⟩
  | 48 => ⟨S1650000x48, .f32⟩
  | 49 => ⟨S_, .f32⟩
  | 50 => ⟨S50000x48, .f32⟩
  | 51 => ⟨S1650000x1, .i32⟩
  | 52 => ⟨S50000x48, .f32⟩
  | 53 => ⟨S_, .f32⟩
  | 54 => ⟨S50000x48, .f32⟩
  | 55 => ⟨S50000x48, .f32⟩
  | 56 => ⟨S_, .f32⟩
  | 57 => ⟨S50000x48, .f32⟩
  | 58 => ⟨S50000x48, .f32⟩
  | 59 => ⟨S50000x48, .f32⟩
  | 60 => ⟨S_, .i32⟩
  | 61 => ⟨S1650000, .i32⟩
  | 62 => ⟨S1650000, .i1⟩
  | 63 => ⟨S_, .i32⟩
  | 64 => ⟨S1650000, .i32⟩
  | 65 => ⟨S1650000, .i32⟩
  | 66 => ⟨S1650000, .i32⟩
  | 67 => ⟨S1650000x1, .i32⟩
  | 68 => ⟨S1650000x48, .f32⟩
  | 69 => ⟨S1650000x48, .f32⟩
  | 70 => ⟨S1650000x48, .f32⟩
  | 71 => ⟨S_, .f32⟩
  | 72 => ⟨S50000x48, .f32⟩
  | 73 => ⟨S1650000x1, .i32⟩
  | 74 => ⟨S50000x48, .f32⟩
  | 75 => ⟨S_, .f32⟩
  | 76 => ⟨S50000x48, .f32⟩
  | 77 => ⟨S50000x48, .f32⟩
  | 78 => ⟨S_, .f32⟩
  | 79 => ⟨S50000x48, .f32⟩
  | 80 => ⟨S50000x48, .f32⟩
  | 81 => ⟨S50000x48, .f32⟩
  | 82 => ⟨S_, .i32⟩
  | 83 => ⟨S1650000, .i32⟩
  | 84 => ⟨S1650000, .i1⟩
  | 85 => ⟨S_, .i32⟩
  | 86 => ⟨S1650000, .i32⟩
  | 87 => ⟨S1650000, .i32⟩
  | 88 => ⟨S1650000, .i32⟩
  | 89 => ⟨S1650000x1, .i32⟩
  | 90 => ⟨S1650000x48, .f32⟩
  | 91 => ⟨S1650000x48, .f32⟩
  | 92 => ⟨S1650000x48, .f32⟩
  | 93 => ⟨S_, .f32⟩
  | 94 => ⟨S50000x48, .f32⟩
  | 95 => ⟨S1650000x1, .i32⟩
  | 96 => ⟨S50000x48, .f32⟩
  | 97 => ⟨S_, .f32⟩
  | 98 => ⟨S50000x48, .f32⟩
  | 99 => ⟨S50000x48, .f32⟩
  | 100 => ⟨S_, .f32⟩
  | 101 => ⟨S50000x48, .f32⟩
  | 102 => ⟨S50000x48, .f32⟩
  | 103 => ⟨S50000x48, .f32⟩
  | 104 => ⟨S_, .i32⟩
  | 105 => ⟨S1650000, .i32⟩
  | 106 => ⟨S1650000, .i1⟩
  | 107 => ⟨S_, .i32⟩
  | 108 => ⟨S1650000, .i32⟩
  | 109 => ⟨S1650000, .i32⟩
  | 110 => ⟨S1650000, .i32⟩
  | 111 => ⟨S1650000x1, .i32⟩
  | 112 => ⟨S1650000x48, .f32⟩
  | 113 => ⟨S1650000x48, .f32⟩
  | 114 => ⟨S1650000x48, .f32⟩
  | 115 => ⟨S_, .f32⟩
  | 116 => ⟨S50000x48, .f32⟩
  | 117 => ⟨S1650000x1, .i32⟩
  | 118 => ⟨S50000x48, .f32⟩
  | 119 => ⟨S_, .f32⟩
  | 120 => ⟨S50000x48, .f32⟩
  | 121 => ⟨S50000x48, .f32⟩
  | 122 => ⟨S_, .f32⟩
  | 123 => ⟨S50000x48, .f32⟩
  | 124 => ⟨S50000x48, .f32⟩
  | 125 => ⟨S50000x48, .f32⟩
  | 126 => ⟨S_, .i32⟩
  | 127 => ⟨S1650000, .i32⟩
  | _ => ⟨S50000x500, .f32⟩

abbrev hbmTy0_2 (i : Nat) : BufTy := match i % 128 with
  | 0 => ⟨S1650000, .i1⟩
  | 1 => ⟨S_, .i32⟩
  | 2 => ⟨S1650000, .i32⟩
  | 3 => ⟨S1650000, .i32⟩
  | 4 => ⟨S1650000, .i32⟩
  | 5 => ⟨S1650000x1, .i32⟩
  | 6 => ⟨S1650000x48, .f32⟩
  | 7 => ⟨S1650000x48, .f32⟩
  | 8 => ⟨S1650000x48, .f32⟩
  | 9 => ⟨S_, .f32⟩
  | 10 => ⟨S50000x48, .f32⟩
  | 11 => ⟨S1650000x1, .i32⟩
  | 12 => ⟨S50000x48, .f32⟩
  | 13 => ⟨S_, .f32⟩
  | 14 => ⟨S50000x48, .f32⟩
  | 15 => ⟨S50000x48, .f32⟩
  | 16 => ⟨S_, .f32⟩
  | 17 => ⟨S50000x48, .f32⟩
  | 18 => ⟨S50000x48, .f32⟩
  | 19 => ⟨S50000x48, .f32⟩
  | _ => ⟨S50000x500, .f32⟩

abbrev hbmTy (i : Nat) : BufTy := match i / 128 with
  | 0 => hbmTy0_0 i
  | 1 => hbmTy0_1 i
  | 2 => hbmTy0_2 i
  | _ => ⟨S50000x500, .f32⟩

abbrev bufTy : (tb : Table) → Fin (tcTables nBuf tb) → BufTy
  | .hbm, ⟨i, _⟩ => hbmTy i
  | .local _ .vmem, ⟨0, _⟩ => ⟨S2000x500, .f32⟩
  | .local _ .vmem, ⟨1, _⟩ => ⟨S2000x500, .f32⟩
  | .local _ .vmem, ⟨2, _⟩ => ⟨S500x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x48, .f32⟩
  | .local _ .vmem, ⟨7, _⟩ => ⟨S1x48, .f32⟩
  | .local _ .vmem, ⟨8, _⟩ => ⟨S2000x48, .f32⟩
  | .local _ .vmem, ⟨9, _⟩ => ⟨S2000x48, .f32⟩
  | _, _ => ⟨S50000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v21 : Ref sig .tc := ⟨.hbm, 35, rfl⟩
abbrev main_c : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_cst_20 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_21 : Ref sig .tc := ⟨.hbm, 122, rfl⟩
abbrev main_v89 : Ref sig .tc := ⟨.hbm, 123, rfl⟩
abbrev main_v90 : Ref sig .tc := ⟨.hbm, 124, rfl⟩
abbrev main_c_22 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_23 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_cst_25 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_c_26 : Ref sig .tc := ⟨.hbm, 144, rfl⟩
abbrev main_v106 : Ref sig .tc := ⟨.hbm, 145, rfl⟩
abbrev main_v107 : Ref sig .tc := ⟨.hbm, 146, rfl⟩
abbrev main_c_27 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_28 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_29 : Ref sig .tc := ⟨.hbm, 159, rfl⟩
abbrev main_v118 : Ref sig .tc := ⟨.hbm, 160, rfl⟩
abbrev main_v119 : Ref sig .tc := ⟨.hbm, 161, rfl⟩
abbrev main_cst_30 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_c_31 : Ref sig .tc := ⟨.hbm, 166, rfl⟩
abbrev main_v123 : Ref sig .tc := ⟨.hbm, 167, rfl⟩
abbrev main_v124 : Ref sig .tc := ⟨.hbm, 168, rfl⟩
abbrev main_c_32 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_33 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_34 : Ref sig .tc := ⟨.hbm, 181, rfl⟩
abbrev main_v135 : Ref sig .tc := ⟨.hbm, 182, rfl⟩
abbrev main_v136 : Ref sig .tc := ⟨.hbm, 183, rfl⟩
abbrev main_cst_35 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_c_36 : Ref sig .tc := ⟨.hbm, 188, rfl⟩
abbrev main_v140 : Ref sig .tc := ⟨.hbm, 189, rfl⟩
abbrev main_v141 : Ref sig .tc := ⟨.hbm, 190, rfl⟩
abbrev main_c_37 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_cst_38 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_39 : Ref sig .tc := ⟨.hbm, 203, rfl⟩
abbrev main_v152 : Ref sig .tc := ⟨.hbm, 204, rfl⟩
abbrev main_v153 : Ref sig .tc := ⟨.hbm, 205, rfl⟩
abbrev main_cst_40 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_41 : Ref sig .tc := ⟨.hbm, 210, rfl⟩
abbrev main_v157 : Ref sig .tc := ⟨.hbm, 211, rfl⟩
abbrev main_v158 : Ref sig .tc := ⟨.hbm, 212, rfl⟩
abbrev main_c_42 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_cst_43 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_cst_44 : Ref sig .tc := ⟨.hbm, 225, rfl⟩
abbrev main_v169 : Ref sig .tc := ⟨.hbm, 226, rfl⟩
abbrev main_v170 : Ref sig .tc := ⟨.hbm, 227, rfl⟩
abbrev main_cst_45 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_c_46 : Ref sig .tc := ⟨.hbm, 232, rfl⟩
abbrev main_v174 : Ref sig .tc := ⟨.hbm, 233, rfl⟩
abbrev main_v175 : Ref sig .tc := ⟨.hbm, 234, rfl⟩
abbrev main_c_47 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_cst_48 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_cst_49 : Ref sig .tc := ⟨.hbm, 247, rfl⟩
abbrev main_v186 : Ref sig .tc := ⟨.hbm, 248, rfl⟩
abbrev main_v187 : Ref sig .tc := ⟨.hbm, 249, rfl⟩
abbrev main_cst_50 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_c_51 : Ref sig .tc := ⟨.hbm, 254, rfl⟩
abbrev main_v191 : Ref sig .tc := ⟨.hbm, 255, rfl⟩
abbrev main_v192 : Ref sig .tc := ⟨.hbm, 256, rfl⟩
abbrev main_c_52 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_v199 : Ref sig .tc := ⟨.hbm, 264, rfl⟩
abbrev main_cst_53 : Ref sig .tc := ⟨.hbm, 265, rfl⟩
abbrev main_v200 : Ref sig .tc := ⟨.hbm, 266, rfl⟩
abbrev main_v201 : Ref sig .tc := ⟨.hbm, 267, rfl⟩
abbrev main_v202 : Ref sig .tc := ⟨.hbm, 268, rfl⟩
abbrev main_cst_54 : Ref sig .tc := ⟨.hbm, 269, rfl⟩
abbrev main_v203 : Ref sig .tc := ⟨.hbm, 270, rfl⟩
abbrev main_v204 : Ref sig .tc := ⟨.hbm, 271, rfl⟩
abbrev main_cst_55 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x48 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x48 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S256x500_S500x256_1_0 : S256x500.Transposes [1, 0] S500x256
  transposes_S256x256_S256x256_1_0 : S256x256.Transposes [1, 0] S256x256
  transposes_S48x256_S256x48_1_0 : S48x256.Transposes [1, 0] S256x48
  shapeCasts_S256_S1x256 : S256.ShapeCasts S1x256
  shapeCasts_S48_S1x48 : S48.ShapeCasts S1x48
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x256_S500x256_0_0 : ∀ a, (![0, 0] : Fin 2 → Nat) a + S500x256.size a ≤ S500x256.size a
  h_S500x256 : 0 < S500x256.numel
  shapeCasts_S500x256_S500x256 : S500x256.ShapeCasts S500x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x48_S256x48_0_0 : ∀ a, (![0, 0] : Fin 2 → Nat) a + S256x48.size a ≤ S256x48.size a
  h_S256x48 : 0 < S256x48.numel
  shapeCasts_S256x48_S256x48 : S256x48.ShapeCasts S256x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S2000x48 : S1x48.Broadcasts S2000x48
  inb_S2000x48_S2000x48_0_0 : ∀ a, (![0, 0] : Fin 2 → Nat) a + S2000x48.size a ≤ S2000x48.size a
  h_S2000x48 : 0 < S2000x48.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x48_0_1 : S1650000x1.BroadcastsInDim S1650000x48 (![0, 1] : Fin 2 → Fin S1650000x48.rank)
  bcast_S_S50000x48 : S_.BroadcastsInDim S50000x48 (![] : Fin 0 → Fin S50000x48.rank)
  dot_S2000x500_S500x256_S2000x256_1_0_0_1_n_n_wf : DotDims.WF S2000x500 S500x256 S2000x256 [1] [0] [0] [1] [] []
  dot_S2000x256_S256x256_S2000x256_1_0_0_1_n_n_wf : DotDims.WF S2000x256 S256x256 S2000x256 [1] [0] [0] [1] [] []
  dot_S2000x256_S256x48_S2000x48_1_0_0_1_n_n_wf : DotDims.WF S2000x256 S256x48 S2000x48 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x48_S1650000x1_S1650000x48_1_0_n_n_0_1_148_wf : GatherDims.WF S50000x48 S1650000x1 S1650000x48 [1] [0] [] [0] [] 1 ![1, 48]
  scatter_S50000x48_S1650000x1_S1650000x48_1_0_0_1_wf : ScatterDims.WF S50000x48 S1650000x1 S1650000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S50000x500.size a
  hwx0_0 : ∀ i : grid0.Coords, EltTy.bits .f32 = 32 ∨ (Rect.block (s := S50000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x256.size a ≤ S500x256.size a
  hwx0_1 : ∀ i : grid0.Coords, EltTy.bits .f32 = 32 ∨ (Rect.block (s := S500x256) S500x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x48.size a ≤ S256x48.size a
  hwx0_5 : ∀ i : grid0.Coords, EltTy.bits .f32 = 32 ∨ (Rect.block (s := S256x48) S256x48.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x48.size a ≤ S1x48.size a
  hwx0_6 : ∀ i : grid0.Coords, EltTy.bits .f32 = 32 ∨ (Rect.block (s := S1x48) S1x48.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x48.size a ≤ S50000x48.size a
  hwx0_7 : ∀ i : grid0.Coords, EltTy.bits .f32 = 32 ∨ (Rect.block (s := S50000x48) S2000x48.size (cc0_transform_7 i) (hinb0_7 i)).WholeWords (EltTy.packing .f32)

variable [Facts₀]

def dot_S2000x500_S500x256_S2000x256_1_0_0_1_n_n : DotDims S2000x500 S500x256 S2000x256 where
  lhsContracting := [1]
  rhsContracting := [0]
  lhsNonContracting := [0]
  rhsNonContracting := [1]
  lhsBatch := []
  rhsBatch := []
  wf := dot_S2000x500_S500x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x48_S2000x48_1_0_0_1_n_n : DotDims S2000x256 S256x48 S2000x48 where
  lhsContracting := [1]
  rhsContracting := [0]
  lhsNonContracting := [0]
  rhsNonContracting := [1]
  lhsBatch := []
  rhsBatch := []
  wf := dot_S2000x256_S256x48_S2000x48_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x48_S1650000x1_S1650000x48_1_0_n_n_0_1_148 : GatherDims S50000x48 S1650000x1 S1650000x48 where
  offsetDims := [1]
  collapsedSliceDims := [0]
  operandBatchingDims := []
  startIndicesBatchingDims := []
  startIndexMap := [0]
  indexVectorDim := 1
  sliceSizes := ![1, 48]
  wf := gather_S50000x48_S1650000x1_S1650000x48_1_0_n_n_0_1_148_wf
def scatter_S50000x48_S1650000x1_S1650000x48_1_0_0_1 : ScatterDims S50000x48 S1650000x1 S1650000x48 where
  updateWindowDims := [1]
  insertedWindowDims := [0]
  scatterDimsToOperandDims := [0]
  indexVectorDim := 1
  wf := scatter_S50000x48_S1650000x1_S1650000x48_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S500x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S2000x48.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x500 : Shape := ⟨2, ![50000, 500]⟩
abbrev S2x1600000 : Shape := ⟨2, ![2, 1600000]⟩
abbrev S256x500 : Shape := ⟨2, ![256, 500]⟩
abbrev S256 : Shape := ⟨1, ![256]⟩
abbrev S256x256 : Shape := ⟨2, ![256, 256]⟩
abbrev S48x256 : Shape := ⟨2, ![48, 256]⟩
abbrev S48 : Shape := ⟨1, ![48]⟩
abbrev S500x256 : Shape := ⟨2, ![500, 256]⟩
abbrev S50000x256 : Shape := ⟨2, ![50000, 256]⟩
abbrev S1x256 : Shape := ⟨2, ![1, 256]⟩
abbrev S_ : Shape := ⟨0, ![]⟩
abbrev S256x48 : Shape := ⟨2, ![256, 48]⟩
abbrev S50000x48 : Shape := ⟨2, ![50000, 48]⟩
abbrev S1x48 : Shape := ⟨2, ![1, 48]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S1650000x1 : Shape := ⟨2, ![1650000, 1]⟩
abbrev S1650000x48 : Shape := ⟨2, ![1650000, 48]⟩

abbrev nBuf : Space → Nat
  | .hbm => 290
  | .vmem => 0
  | .smem => 0
  | _ => 0

abbrev hbmTy0_0 (i : Nat) : BufTy := match i % 128 with
  | 0 => ⟨S50000x500, .f32⟩
  | 1 => ⟨S2x1600000, .i32⟩
  | 2 => ⟨S256x500, .f32⟩
  | 3 => ⟨S256, .f32⟩
  | 4 => ⟨S256x256, .f32⟩
  | 5 => ⟨S256, .f32⟩
  | 6 => ⟨S48x256, .f32⟩
  | 7 => ⟨S48, .f32⟩
  | 8 => ⟨S500x256, .f32⟩
  | 9 => ⟨S50000x256, .f32⟩
  | 10 => ⟨S1x256, .f32⟩
  | 11 => ⟨S50000x256, .f32⟩
  | 12 => ⟨S50000x256, .f32⟩
  | 13 => ⟨S_, .f32⟩
  | 14 => ⟨S50000x256, .f32⟩
  | 15 => ⟨S50000x256, .f32⟩
  | 16 => ⟨S256x256, .f32⟩
  | 17 => ⟨S50000x256, .f32⟩
  | 18 => ⟨S1x256, .f32⟩
  | 19 => ⟨S50000x256, .f32⟩
  | 20 => ⟨S50000x256, .f32⟩
  | 21 => ⟨S_, .f32⟩
  | 22 => ⟨S50000x256, .f32⟩
  | 23 => ⟨S50000x256, .f32⟩
  | 24 => ⟨S256x48, .f32⟩
  | 25 => ⟨S50000x48, .f32⟩
  | 26 => ⟨S1x48, .f32⟩
  | 27 => ⟨S50000x48, .f32⟩
  | 28 => ⟨S50000x48, .f32⟩
  | 29 => ⟨S1x1600000, .i32⟩
  | 30 => ⟨S1600000, .i32⟩
  | 31 => ⟨S1x1600000, .i32⟩
  | 32 => ⟨S1600000, .i32⟩
  | 33 => ⟨S50000, .i32⟩
  | 34 => ⟨S1650000, .i32⟩
  | 35 => ⟨S1650000, .i32⟩
  | 36 => ⟨S_, .f32⟩
  | 37 => ⟨S1650000, .f32⟩
  | 38 => ⟨S_, .f32⟩
  | 39 => ⟨S50000, .f32⟩
  | 40 => ⟨S1650000x1, .i32⟩
  | 41 => ⟨S50000, .f32⟩
  | 42 => ⟨S_, .f32⟩
  | 43 => ⟨S50000, .f32⟩
  | 44 => ⟨S50000, .i1⟩
  | 45 => ⟨S50000, .f32⟩
  | 46 => ⟨S_, .f32⟩
  | 47 => ⟨S_, .f32⟩
  | 48 => ⟨S50000, .f32⟩
  | 49 => ⟨S50000, .f32⟩
  | 50 => ⟨S_, .i32⟩
  | 51 => ⟨S1650000, .i32⟩
  | 52 => ⟨S1650000, .i1⟩
  | 53 => ⟨S_, .i32⟩
  | 54 => ⟨S1650000, .i32⟩
  | 55 => ⟨S1650000, .i32⟩
  | 56 => ⟨S1650000, .i32⟩
  | 57 => ⟨S1650000x1, .i32⟩
  | 58 => ⟨S1650000, .f32⟩
  | 59 => ⟨S_, .i32⟩
  | 60 => ⟨S1650000, .i32⟩
  | 61 => ⟨S1650000, .i1⟩
  | 62 => ⟨S_, .i32⟩
  | 63 => ⟨S1650000, .i32⟩
  | 64 => ⟨S1650000, .i32⟩
  | 65 => ⟨S1650000, .i32⟩
  | 66 => ⟨S1650000x1, .i32⟩
  | 67 => ⟨S1650000, .f32⟩
  | 68 => ⟨S1650000, .f32⟩
  | 69 => ⟨S1650000x1, .f32⟩
  | 70 => ⟨S_, .i32⟩
  | 71 => ⟨S1650000, .i32⟩
  | 72 => ⟨S1650000, .i1⟩
  | 73 => ⟨S_, .i32⟩
  | 74 => ⟨S1650000, .i32⟩
  | 75 => ⟨S1650000, .i32⟩
  | 76 => ⟨S1650000, .i32⟩
  | 77 => ⟨S1650000x1, .i32⟩
  | 78 => ⟨S1650000x48, .f32⟩
  | 79 => ⟨S1650000x48, .f32⟩
  | 80 => ⟨S1650000x48, .f32⟩
  | 81 => ⟨S_, .f32⟩
  | 82 => ⟨S50000x48, .f32⟩
  | 83 => ⟨S1650000x1, .i32⟩
  | 84 => ⟨S50000x48, .f32⟩
  | 85 => ⟨S_, .f32⟩
  | 86 => ⟨S50000x48, .f32⟩
  | 87 => ⟨S50000x48, .f32⟩
  | 88 => ⟨S_, .f32⟩
  | 89 => ⟨S50000x48, .f32⟩
  | 90 => ⟨S50000x48, .f32⟩
  | 91 => ⟨S50000x48, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000x48, .f32⟩
  | 101 => ⟨S1650000x48, .f32⟩
  | 102 => ⟨S1650000x48, .f32⟩
  | 103 => ⟨S_, .f32⟩
  | 104 => ⟨S50000x48, .f32⟩
  | 105 => ⟨S1650000x1, .i32⟩
  | 106 => ⟨S50000x48, .f32⟩
  | 107 => ⟨S_, .f32⟩
  | 108 => ⟨S50000x48, .f32⟩
  | 109 => ⟨S50000x48, .f32⟩
  | 110 => ⟨S_, .f32⟩
  | 111 => ⟨S50000x48, .f32⟩
  | 112 => ⟨S50000x48, .f32⟩
  | 113 => ⟨S50000x48, .f32⟩
  | 114 => ⟨S_, .i32⟩
  | 115 => ⟨S1650000, .i32⟩
  | 116 => ⟨S1650000, .i1⟩
  | 117 => ⟨S_, .i32⟩
  | 118 => ⟨S1650000, .i32⟩
  | 119 => ⟨S1650000, .i32⟩
  | 120 => ⟨S1650000, .i32⟩
  | 121 => ⟨S1650000x1, .i32⟩
  | 122 => ⟨S1650000x48, .f32⟩
  | 123 => ⟨S1650000x48, .f32⟩
  | 124 => ⟨S1650000x48, .f32⟩
  | 125 => ⟨S_, .f32⟩
  | 126 => ⟨S50000x48, .f32⟩
  | 127 => ⟨S1650000x1, .i32⟩
  | _ => ⟨S50000x500, .f32⟩

abbrev hbmTy0_1 (i : Nat) : BufTy := match i % 128 with
  | 0 => ⟨S50000x48, .f32⟩
  | 1 => ⟨S_, .f32⟩
  | 2 => ⟨S50000x48, .f32⟩
  | 3 => ⟨S50000x48, .f32⟩
  | 4 => ⟨S_, .f32⟩
  | 5 => ⟨S50000x48, .f32⟩
  | 6 => ⟨S50000x48, .f32⟩
  | 7 => ⟨S50000x48, .f32⟩
  | 8 => ⟨S_, .i32⟩
  | 9 => ⟨S1650000, .i32⟩
  | 10 => ⟨S1650000, .i1⟩
  | 11 => ⟨S_, .i32⟩
  | 12 => ⟨S1650000, .i32⟩
  | 13 => ⟨S1650000, .i32⟩
  | 14 => ⟨S1650000, .i32⟩
  | 15 => ⟨S1650000x1, .i32⟩
  | 16 => ⟨S1650000x48, .f32⟩
  | 17 => ⟨S1650000x48, .f32⟩
  | 18 => ⟨S1650000x48, .f32⟩
  | 19 => ⟨S_, .f32⟩
  | 20 => ⟨S50000x48, .f32⟩
  | 21 => ⟨S1650000x1, .i32⟩
  | 22 => ⟨S50000x48, .f32⟩
  | 23 => ⟨S_, .f32⟩
  | 24 => ⟨S50000x48, .f32⟩
  | 25 => ⟨S50000x48, .f32⟩
  | 26 => ⟨S_, .f32⟩
  | 27 => ⟨S50000x48, .f32⟩
  | 28 => ⟨S50000x48, .f32⟩
  | 29 => ⟨S50000x48, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000x48, .f32⟩
  | 39 => ⟨S1650000x48, .f32⟩
  | 40 => ⟨S1650000x48, .f32⟩
  | 41 => ⟨S_, .f32⟩
  | 42 => ⟨S50000x48, .f32⟩
  | 43 => ⟨S1650000x1, .i32⟩
  | 44 => ⟨S50000x48, .f32⟩
  | 45 => ⟨S_, .f32⟩
  | 46 => ⟨S50000x48, .f32⟩
  | 47 => ⟨S50000x48, .f32⟩
  | 48 => ⟨S_, .f32⟩
  | 49 => ⟨S50000x48, .f32⟩
  | 50 => ⟨S50000x48, .f32⟩
  | 51 => ⟨S50000x48, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x48, .f32⟩
  | 61 => ⟨S1650000x48, .f32⟩
  | 62 => ⟨S1650000x48, .f32⟩
  | 63 => ⟨S_, .f32⟩
  | 64 => ⟨S50000x48, .f32⟩
  | 65 => ⟨S1650000x1, .i32⟩
  | 66 => ⟨S50000x48, .f32⟩
  | 67 => ⟨S_, .f32⟩
  | 68 => ⟨S50000x48, .f32⟩
  | 69 => ⟨S50000x48, .f32⟩
  | 70 => ⟨S_, .f32⟩
  | 71 => ⟨S50000x48, .f32⟩
  | 72 => ⟨S50000x48, .f32⟩
  | 73 => ⟨S50000x48, .f32⟩
  | 74 => ⟨S_, .i32⟩
  | 75 => ⟨S1650000, .i32⟩
  | 76 => ⟨S1650000, .i1⟩
  | 77 => ⟨S_, .i32⟩
  | 78 => ⟨S1650000, .i32⟩
  | 79 => ⟨S1650000, .i32⟩
  | 80 => ⟨S1650000, .i32⟩
  | 81 => ⟨S1650000x1, .i32⟩
  | 82 => ⟨S1650000x48, .f32⟩
  | 83 => ⟨S1650000x48, .f32⟩
  | 84 => ⟨S1650000x48, .f32⟩
  | 85 => ⟨S_, .f32⟩
  | 86 => ⟨S50000x48, .f32⟩
  | 87 => ⟨S1650000x1, .i32⟩
  | 88 => ⟨S50000x48, .f32⟩
  | 89 => ⟨S_, .f32⟩
  | 90 => ⟨S50000x48, .f32⟩
  | 91 => ⟨S50000x48, .f32⟩
  | 92 => ⟨S_, .f32⟩
  | 93 => ⟨S50000x48, .f32⟩
  | 94 => ⟨S50000x48, .f32⟩
  | 95 => ⟨S50000x48, .f32⟩
  | 96 => ⟨S_, .i32⟩
  | 97 => ⟨S1650000, .i32⟩
  | 98 => ⟨S1650000, .i1⟩
  | 99 => ⟨S_, .i32⟩
  | 100 => ⟨S1650000, .i32⟩
  | 101 => ⟨S1650000, .i32⟩
  | 102 => ⟨S1650000, .i32⟩
  | 103 => ⟨S1650000x1, .i32⟩
  | 104 => ⟨S1650000x48, .f32⟩
  | 105 => ⟨S1650000x48, .f32⟩
  | 106 => ⟨S1650000x48, .f32⟩
  | 107 => ⟨S_, .f32⟩
  | 108 => ⟨S50000x48, .f32⟩
  | 109 => ⟨S1650000x1, .i32⟩
  | 110 => ⟨S50000x48, .f32⟩
  | 111 => ⟨S_, .f32⟩
  | 112 => ⟨S50000x48, .f32⟩
  | 113 => ⟨S50000x48, .f32⟩
  | 114 => ⟨S_, .f32⟩
  | 115 => ⟨S50000x48, .f32⟩
  | 116 => ⟨S50000x48, .f32⟩
  | 117 => ⟨S50000x48, .f32⟩
  | 118 => ⟨S_, .i32⟩
  | 119 => ⟨S1650000, .i32⟩
  | 120 => ⟨S1650000, .i1⟩
  | 121 => ⟨S_, .i32⟩
  | 122 => ⟨S1650000, .i32⟩
  | 123 => ⟨S1650000, .i32⟩
  | 124 => ⟨S1650000, .i32⟩
  | 125 => ⟨S1650000x1, .i32⟩
  | 126 => ⟨S1650000x48, .f32⟩
  | 127 => ⟨S1650000x48, .f32⟩
  | _ => ⟨S50000x500, .f32⟩

abbrev hbmTy0_2 (i : Nat) : BufTy := match i % 128 with
  | 0 => ⟨S1650000x48, .f32⟩
  | 1 => ⟨S_, .f32⟩
  | 2 => ⟨S50000x48, .f32⟩
  | 3 => ⟨S1650000x1, .i32⟩
  | 4 => ⟨S50000x48, .f32⟩
  | 5 => ⟨S_, .f32⟩
  | 6 => ⟨S50000x48, .f32⟩
  | 7 => ⟨S50000x48, .f32⟩
  | 8 => ⟨S_, .f32⟩
  | 9 => ⟨S50000x48, .f32⟩
  | 10 => ⟨S50000x48, .f32⟩
  | 11 => ⟨S50000x48, .f32⟩
  | 12 => ⟨S_, .i32⟩
  | 13 => ⟨S1650000, .i32⟩
  | 14 => ⟨S1650000, .i1⟩
  | 15 => ⟨S_, .i32⟩
  | 16 => ⟨S1650000, .i32⟩
  | 17 => ⟨S1650000, .i32⟩
  | 18 => ⟨S1650000, .i32⟩
  | 19 => ⟨S1650000x1, .i32⟩
  | 20 => ⟨S1650000x48, .f32⟩
  | 21 => ⟨S1650000x48, .f32⟩
  | 22 => ⟨S1650000x48, .f32⟩
  | 23 => ⟨S_, .f32⟩
  | 24 => ⟨S50000x48, .f32⟩
  | 25 => ⟨S1650000x1, .i32⟩
  | 26 => ⟨S50000x48, .f32⟩
  | 27 => ⟨S_, .f32⟩
  | 28 => ⟨S50000x48, .f32⟩
  | 29 => ⟨S50000x48, .f32⟩
  | 30 => ⟨S_, .f32⟩
  | 31 => ⟨S50000x48, .f32⟩
  | 32 => ⟨S50000x48, .f32⟩
  | 33 => ⟨S50000x48, .f32⟩
  | _ => ⟨S50000x500, .f32⟩

abbrev hbmTy (i : Nat) : BufTy := match i / 128 with
  | 0 => hbmTy0_0 i
  | 1 => hbmTy0_1 i
  | 2 => hbmTy0_2 i
  | _ => ⟨S50000x500, .f32⟩

abbrev bufTy : (tb : Table) → Fin (tcTables nBuf tb) → BufTy
  | .hbm, ⟨i, _⟩ => hbmTy i
  | _, _ => ⟨S50000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_call2_v0 : Ref sig .tc := ⟨.hbm, 47, rfl⟩
abbrev main_call2_v1 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_c_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_6 : Ref sig .tc := ⟨.hbm, 70, rfl⟩
abbrev main_v48 : Ref sig .tc := ⟨.hbm, 71, rfl⟩
abbrev main_v49 : Ref sig .tc := ⟨.hbm, 72, rfl⟩
abbrev main_c_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_19 : Ref sig .tc := ⟨.hbm, 129, rfl⟩
abbrev main_v94 : Ref sig .tc := ⟨.hbm, 130, rfl⟩
abbrev main_v95 : Ref sig .tc := ⟨.hbm, 131, rfl⟩
abbrev main_cst_20 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_c_21 : Ref sig .tc := ⟨.hbm, 136, rfl⟩
abbrev main_v99 : Ref sig .tc := ⟨.hbm, 137, rfl⟩
abbrev main_v100 : Ref sig .tc := ⟨.hbm, 138, rfl⟩
abbrev main_c_22 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_23 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_24 : Ref sig .tc := ⟨.hbm, 151, rfl⟩
abbrev main_v111 : Ref sig .tc := ⟨.hbm, 152, rfl⟩
abbrev main_v112 : Ref sig .tc := ⟨.hbm, 153, rfl⟩
abbrev main_cst_25 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_26 : Ref sig .tc := ⟨.hbm, 158, rfl⟩
abbrev main_v116 : Ref sig .tc := ⟨.hbm, 159, rfl⟩
abbrev main_v117 : Ref sig .tc := ⟨.hbm, 160, rfl⟩
abbrev main_c_27 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_28 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_29 : Ref sig .tc := ⟨.hbm, 173, rfl⟩
abbrev main_v128 : Ref sig .tc := ⟨.hbm, 174, rfl⟩
abbrev main_v129 : Ref sig .tc := ⟨.hbm, 175, rfl⟩
abbrev main_cst_30 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_c_31 : Ref sig .tc := ⟨.hbm, 180, rfl⟩
abbrev main_v133 : Ref sig .tc := ⟨.hbm, 181, rfl⟩
abbrev main_v134 : Ref sig .tc := ⟨.hbm, 182, rfl⟩
abbrev main_c_32 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_33 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_34 : Ref sig .tc := ⟨.hbm, 195, rfl⟩
abbrev main_v145 : Ref sig .tc := ⟨.hbm, 196, rfl⟩
abbrev main_v146 : Ref sig .tc := ⟨.hbm, 197, rfl⟩
abbrev main_cst_35 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_36 : Ref sig .tc := ⟨.hbm, 202, rfl⟩
abbrev main_v150 : Ref sig .tc := ⟨.hbm, 203, rfl⟩
abbrev main_v151 : Ref sig .tc := ⟨.hbm, 204, rfl⟩
abbrev main_c_37 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_cst_38 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_39 : Ref sig .tc := ⟨.hbm, 217, rfl⟩
abbrev main_v162 : Ref sig .tc := ⟨.hbm, 218, rfl⟩
abbrev main_v163 : Ref sig .tc := ⟨.hbm, 219, rfl⟩
abbrev main_cst_40 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_c_41 : Ref sig .tc := ⟨.hbm, 224, rfl⟩
abbrev main_v167 : Ref sig .tc := ⟨.hbm, 225, rfl⟩
abbrev main_v168 : Ref sig .tc := ⟨.hbm, 226, rfl⟩
abbrev main_c_42 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175 : Ref sig .tc := ⟨.hbm, 234, rfl⟩
abbrev main_cst_43 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_44 : Ref sig .tc := ⟨.hbm, 239, rfl⟩
abbrev main_v179 : Ref sig .tc := ⟨.hbm, 240, rfl⟩
abbrev main_v180 : Ref sig .tc := ⟨.hbm, 241, rfl⟩
abbrev main_cst_45 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_c_46 : Ref sig .tc := ⟨.hbm, 246, rfl⟩
abbrev main_v184 : Ref sig .tc := ⟨.hbm, 247, rfl⟩
abbrev main_v185 : Ref sig .tc := ⟨.hbm, 248, rfl⟩
abbrev main_c_47 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_cst_48 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_cst_49 : Ref sig .tc := ⟨.hbm, 261, rfl⟩
abbrev main_v196 : Ref sig .tc := ⟨.hbm, 262, rfl⟩
abbrev main_v197 : Ref sig .tc := ⟨.hbm, 263, rfl⟩
abbrev main_cst_50 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_c_51 : Ref sig .tc := ⟨.hbm, 268, rfl⟩
abbrev main_v201 : Ref sig .tc := ⟨.hbm, 269, rfl⟩
abbrev main_v202 : Ref sig .tc := ⟨.hbm, 270, rfl⟩
abbrev main_c_52 : Ref sig .tc := ⟨.hbm, 271, rfl⟩
abbrev main_v203 : Ref sig .tc := ⟨.hbm, 272, rfl⟩
abbrev main_v204 : Ref sig .tc := ⟨.hbm, 273, rfl⟩
abbrev main_v205 : Ref sig .tc := ⟨.hbm, 274, rfl⟩
abbrev main_v206 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_cst_53 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_cst_54 : Ref sig .tc := ⟨.hbm, 283, rfl⟩
abbrev main_v213 : Ref sig .tc := ⟨.hbm, 284, rfl⟩
abbrev main_v214 : Ref sig .tc := ⟨.hbm, 285, rfl⟩
abbrev main_cst_55 : Ref sig .tc := ⟨.hbm, 286, rfl⟩
abbrev main_v215 : Ref sig .tc := ⟨.hbm, 287, rfl⟩
abbrev main_v216 : Ref sig .tc := ⟨.hbm, 288, rfl⟩
abbrev main_v217 : Ref sig .tc := ⟨.hbm, 289, rfl⟩

abbrev nD : Nat := 1
abbrev τ : Topo := Topo.v7x

variable {F : FTy → Type} [FloatOps F]

class Facts₀ : Prop where
  transposes_S256x500_S500x256_1_0 : S256x500.Transposes [1, 0] S500x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  transposes_S256x256_S256x256_1_0 : S256x256.Transposes [1, 0] S256x256
  transposes_S48x256_S256x48_1_0 : S48x256.Transposes [1, 0] S256x48
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x48_0_1 : S1650000x1.BroadcastsInDim S1650000x48 (![0, 1] : Fin 2 → Fin S1650000x48.rank)
  bcast_S_S50000x48 : S_.BroadcastsInDim S50000x48 (![] : Fin 0 → Fin S50000x48.rank)
  dot_S50000x500_S500x256_S50000x256_1_0_0_1_n_n_wf : DotDims.WF S50000x500 S500x256 S50000x256 [1] [0] [0] [1] [] []
  dot_S50000x256_S256x256_S50000x256_1_0_0_1_n_n_wf : DotDims.WF S50000x256 S256x256 S50000x256 [1] [0] [0] [1] [] []
  dot_S50000x256_S256x48_S50000x48_1_0_0_1_n_n_wf : DotDims.WF S50000x256 S256x48 S50000x48 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x48_S1650000x1_S1650000x48_1_0_n_n_0_1_148_wf : GatherDims.WF S50000x48 S1650000x1 S1650000x48 [1] [0] [] [0] [] 1 ![1, 48]
  scatter_S50000x48_S1650000x1_S1650000x48_1_0_0_1_wf : ScatterDims.WF S50000x48 S1650000x1 S1650000x48 [1] [0] [0] 1

variable [Facts₀]

def dot_S50000x500_S500x256_S50000x256_1_0_0_1_n_n : DotDims S50000x500 S500x256 S50000x256 where
  lhsContracting := [1]
  rhsContracting := [0]
  lhsNonContracting := [0]
  rhsNonContracting := [1]
  lhsBatch := []
  rhsBatch := []
  wf := dot_S50000x500_S500x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x48_S50000x48_1_0_0_1_n_n : DotDims S50000x256 S256x48 S50000x48 where
  lhsContracting := [1]
  rhsContracting := [0]
  lhsNonContracting := [0]
  rhsNonContracting := [1]
  lhsBatch := []
  rhsBatch := []
  wf := dot_S50000x256_S256x48_S50000x48_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x48_S1650000x1_S1650000x48_1_0_n_n_0_1_148 : GatherDims S50000x48 S1650000x1 S1650000x48 where
  offsetDims := [1]
  collapsedSliceDims := [0]
  operandBatchingDims := []
  startIndicesBatchingDims := []
  startIndexMap := [0]
  indexVectorDim := 1
  sliceSizes := ![1, 48]
  wf := gather_S50000x48_S1650000x1_S1650000x48_1_0_n_n_0_1_148_wf
def scatter_S50000x48_S1650000x1_S1650000x48_1_0_0_1 : ScatterDims S50000x48 S1650000x1 S1650000x48 where
  updateWindowDims := [1]
  insertedWindowDims := [0]
  scatterDimsToOperandDims := [0]
  indexVectorDim := 1
  wf := scatter_S50000x48_S1650000x1_S1650000x48_1_0_0_1_wf

class Facts : Prop extends Facts₀ where

variable [Facts]
-- ==== Proof.KernelAround.lean ====
/-
  The launch side of the program: one region (the three-layer perceptron, one block of 2000 rows per grid point)
  between six host lines that lay out the parameters (three transposes, three biases cast to one row) and the
  propagation that follows it, which is host lines only.

  What the frame needs to know of the later lines is little: each allocates nothing, each writes one result buffer
  of its own, and none of those results is an argument of the program or an array the region stages (the arguments
  and the staged arrays are the first fifteen buffers of device memory; every later line writes a buffer after them).
  So the arguments end as launched, and the staged arrays hold after the program what the region left in them.
-/
import proofs.«150733_j30562987278368_2_alg».proof.Proof.Gen.Kernel.Launch
import proofs.«150733_j30562987278368_2_alg».proof.Proof.Gen.Kernel.Points
import Idealize.ShloMosaic.Lib.Pipeline.FrameBody
import Idealize.ShloMosaic.Lib.Pipeline.FrameSuffix

set_option maxRecDepth 16384

noncomputable section

namespace Cert.Kernel.Around

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-! ## The later lines write late buffers only -/

/-- A host line that allocates nothing and writes only buffers after the first fifteen of its memory space. -/
structure Late (op : HloOp τ sig (Elt F)) : Prop where
  fresh : op.fresh = ∅
  late : ∀ r : Ref sig .tc, Proc.devRef (τ := τ) .tc r ∈ op.writes → 15 ≤ r.idx.val

/-- A line whose one written buffer is a late one. -/
theorem Late.of (op : HloOp τ sig (Elt F)) (y : Ref sig .tc) (hw : op.writes = {Proc.devRef .tc y}) (hf : op.fresh = ∅)
    (hy : 15 ≤ y.idx.val) : Late op :=
  ⟨hf, fun r hr => by
    rw [hw, Finset.mem_singleton] at hr
    rw [Proc.devRef_injective _ hr]; exact hy⟩

/-- The lines after the region, in the pieces @main is printed in. -/
abbrev tailLines : List (List (HloOp τ sig (Elt F))) :=
  [main_part0_ops1, main_part0_ops2, main_part0_ops3, main_part1_ops0, main_part2_ops0, main_part3_ops0, main_part4_ops0]

theorem late_a : (main_part0_ops1 : List (HloOp τ sig (Elt F))).Forall Late := by
  simp only [List.Forall]
  repeat' apply And.intro
  all_goals exact Late.of _ _ rfl rfl (by decide)
theorem late_b : (main_part0_ops2 : List (HloOp τ sig (Elt F))).Forall Late := by
  simp only [List.Forall]
  repeat' apply And.intro
  all_goals exact Late.of _ _ rfl rfl (by decide)
theorem late_c : (main_part0_ops3 : List (HloOp τ sig (Elt F))).Forall Late := by
  simp only [List.Forall]
  repeat' apply And.intro
  all_goals exact Late.of _ _ rfl rfl (by decide)
theorem late_d : (main_part1_ops0 : List (HloOp τ sig (Elt F))).Forall Late := by
  simp only [List.Forall]
  repeat' apply And.intro
  all_goals exact Late.of _ _ rfl rfl (by decide)
theorem late_e : (main_part2_ops0 : List (HloOp τ sig (Elt F))).Forall Late := by
  simp only [List.Forall]
  repeat' apply And.intro
  all_goals exact Late.of _ _ rfl rfl (by decide)
theorem late_f : (main_part3_ops0 : List (HloOp τ sig (Elt F))).Forall Late := by
  simp only [List.Forall]
  repeat' apply And.intro
  all_goals exact Late.of _ _ rfl rfl (by decide)
theorem late_g : (main_part4_ops0 : List (HloOp τ sig (Elt F))).Forall Late := by
  simp only [List.Forall]
  repeat' apply And.intro
  all_goals exact Late.of _ _ rfl rfl (by decide)

/-- Every later line is late. -/
theorem tail_late : ∀ ops ∈ (tailLines : List (List (HloOp τ sig (Elt F)))), ∀ op ∈ ops, Late op := by
  intro ops hops
  simp only [List.mem_cons, List.mem_nil_iff, or_false] at hops
  rcases hops with rfl | rfl | rfl | rfl | rfl | rfl | rfl
  · exact List.forall_iff_forall_mem.mp late_a
  · exact List.forall_iff_forall_mem.mp late_b
  · exact List.forall_iff_forall_mem.mp late_c
  · exact List.forall_iff_forall_mem.mp late_d
  · exact List.forall_iff_forall_mem.mp late_e
  · exact List.forall_iff_forall_mem.mp late_f
  · exact List.forall_iff_forall_mem.mp late_g

/-- Every later line touches TensorCore references only. -/
theorem tail_tc : ∀ ops ∈ (tailLines : List (List (HloOp τ sig (Elt F)))), ∀ op ∈ ops, op.bufs ⊆ StableHlo.tcRefs τ sig := by
  intro ops hops
  simp only [List.mem_cons, List.mem_nil_iff, or_false] at hops
  rcases hops with rfl | rfl | rfl | rfl | rfl | rfl | rfl
  · exact List.forall_iff_forall_mem.mp main_part0_ops1_sub
  · exact List.forall_iff_forall_mem.mp main_part0_ops2_sub
  · exact List.forall_iff_forall_mem.mp main_part0_ops3_sub
  · exact List.forall_iff_forall_mem.mp main_part1_ops0_sub
  · exact List.forall_iff_forall_mem.mp main_part2_ops0_sub
  · exact List.forall_iff_forall_mem.mp main_part3_ops0_sub
  · exact List.forall_iff_forall_mem.mp main_part4_ops0_sub

/-- The arrays the region stages are among the first fifteen buffers. -/
theorem arr_early : ∀ w : Fin 8, (Pipeline.arrRef spec0 w).idx.val < 15 := by decide

/-- No later line writes an early buffer. -/
theorem tail_not_writes (r : Ref sig .tc) (hr : r.idx.val < 15) :
    ∀ op ∈ (tailLines : List (List (HloOp τ sig (Elt F)))).flatten, Proc.devRef (τ := τ) .tc r ∉ op.writes := by
  intro op hop hmem
  obtain ⟨ops, hops, hin⟩ := List.mem_flatten.mp hop
  have := (tail_late ops hops op hin).late r hmem
  omega

theorem sfx_sub : ∀ ops ∈ (tailLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_tc ops hops op hop)

theorem sfx_fresh : ∀ ops ∈ (tailLines : List (List (HloOp τ sig (Elt F)))), ∀ op ∈ ops, op.fresh = ∅ :=
  fun ops hops op hop => (tail_late ops hops op hop).fresh

theorem sfx_keeps : ∀ ops ∈ (tailLines : List (List (HloOp τ sig (Elt F)))), ∀ op ∈ ops,
    ∀ w, Proc.devRef .tc (Pipeline.arrRef spec0 w) ∉ op.writes := by
  intro ops hops op hop w hmem
  have h1 := (tail_late ops hops op hop).late _ hmem
  have h2 := arr_early w
  omega

/-! ## @main around the region -/

variable (m : (ℓ : Loc nD τ sig) → Buf (Elt F) ℓ) (ρ : Dev nD → PrngReg)

/-- What core c's buffers hold when the region is entered: the launch contents after the six lines that lay out
    the parameters. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

theorem head_fresh : (main_part0_ops0 : List (HloOp τ sig (Elt F))).Forall fun op => op.fresh = ∅ := by
  simp only [List.Forall]; repeat' constructor

/-- @main is the parameter lines, the region, and the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailLines : List (List (HloOp τ sig (Elt F)))).map StableHlo.seq)) :=
  Pipeline.hmain_around cfgs 0 defs₀ 𝒱₀ m main [main_part0_ops0] tailLines (by simp only [List.Forall]; exact main_part0_ops0_sub)
    (by simp only [List.Forall]; exact head_fresh) main_chain_windows

/-- Two references whose positions lie in different ranges are different buffers of the device. -/
theorem devRef_ne_of_range {r y : Ref sig .tc} (hr : r.idx.val < 8 ∨ 13 < r.idx.val) (hy : 8 ≤ y.idx.val ∧ y.idx.val ≤ 13) :
    Proc.devRef (τ := τ) .tc r ≠ Proc.devRef .tc y := fun e => by
  have h := congrArg (fun x : Ref sig .tc => x.idx.val) (Proc.devRef_injective _ e)
  omega

/-- A buffer the parameter lines do not write is found by the region as launched: the six lines write buffers 8 to 13. -/
theorem V_early (c : Dev nD) (r : Ref sig .tc) (hr : r.idx.val < 8 ∨ 13 < r.idx.val) :
    V m c r = m ((c : Thread nD τ).loc r) :=
  StableHlo.after_of_forall_not_mem (b := Proc.devRef .tc r) _ _ (List.forall_iff_forall_mem.mp (by
    simp only [main_part0_ops0, List.flatten_cons, List.flatten_nil, List.append_nil, List.cons_append,
      List.nil_append, List.Forall, StableHlo.unary_writes, StableHlo.reshape_writes, Finset.mem_singleton]
    repeat' apply And.intro
    all_goals exact devRef_ne_of_range hr (by decide)))

/-- An early buffer that is no staged array ends, after the later lines, as the region found it. -/
theorem tail_kept (dats : (p : Fin 1) → (c : Dev nD) → Dat τ (Elt F) Unit ℕ (UR sig nD τ) ℕ (cfgs p) c) (c : Dev nD)
    (r : Ref sig .tc) (hr : r.idx.val < 15) (hne : ∀ w, Pipeline.arrRef spec0 w ≠ r) :
    Pipeline.afterTail₀ cfgs dats 0 (V0 m) tailLines c r = V m c r := by
  unfold Pipeline.afterTail₀
  rw [StableHlo.after_of_forall_not_mem (b := Proc.devRef .tc r) _ _ (tail_not_writes r hr),
    Pipeline.withArrays_of_ne _ c (V0 m c) _ r hne]

end Cert.Kernel.Around

end
-- ==== Proof.KernelBody.lean ====
/-
  The body of the region at one grid point: it loads the block of 2000 rows, the three transposed weight matrices
  and the three bias rows, computes the three dense layers, and stores the [2000, 48] result over the whole of its
  output buffer (after one load of that buffer whose value it never uses).  So after the body every input buffer
  holds what it held, and the output buffer holds the layers' value of the seven loaded blocks, whatever it held before.
-/
import proofs.«150733_j30562987278368_2_alg».proof.Proof.Gen.Kernel.Launch
import proofs.«150733_j30562987278368_2_alg».proof.Proof.Gen.Kernel.Skeleton
import proofs.«150733_j30562987278368_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rX : Rect S2000x500 := Rect.unit (s := S2000x500) ![0, 0] S2000x500.size inb_S2000x500_S2000x500_0_0
abbrev rW1 : Rect S500x256 := Rect.unit (s := S500x256) ![0, 0] S500x256.size inb_S500x256_S500x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rW3 : Rect S256x48 := Rect.unit (s := S256x48) ![0, 0] S256x48.size inb_S256x48_S256x48_0_0
abbrev rB3 : Rect S1x48 := Rect.unit (s := S1x48) ![0, 0] S1x48.size inb_S1x48_S1x48_0_0
abbrev rO : Rect S2000x48 := Rect.unit (s := S2000x48) ![0, 0] S2000x48.size inb_S2000x48_S2000x48_0_0

/-- What the output buffer holds after the body, from the seven input buffers' contents: its one store, of the
    three layers' value of what was loaded. -/
def outBlock (x : Vec F S2000x500 .f32) (w1 : Vec F S500x256 .f32) (b1 : Vec F S1x256 .f32) (w2 : Vec F S256x256 .f32)
    (b2 : Vec F S1x256 .f32) (w3 : Vec F S256x48 .f32) (b3 : Vec F S1x48 .f32) : Vec F S2000x48 .f32 :=
  View.canon [⟨rO, k0_pay1 (View.ld x rX) (View.ld w1 rW1) (View.ld b1 rB) (View.ld w2 rW2) (View.ld b2 rB) (View.ld w3 rW3) (View.ld b3 rB3)⟩]

/-- The one store is through the whole buffer, so it covers it. -/
theorem cover_out (p0 : Vec F S2000x48 .f32) (y : S2000x48.Idx) :
    ∃ pc ∈ ([⟨rO, p0⟩] : List (View.Piece (Elt F) S2000x48 .f32)), y ∈ pc.1.set :=
  View.cover_of_tiled [⟨rO, p0⟩] S2000x48.size (by rfl) y

set_option maxHeartbeats 4000000 in
/-- The body on whole staging buffers, the inputs' at contents it reads and the output's at anything, runs to the
    continuation with the inputs' as they were and the output's at outBlock of them. -/
theorem sound_kernel (c : Dev nD) (E : Set ℕ) (i : grid0.Coords)
    (arg1 : Memref sig .tc .vmem S2000x500 .f32) (harg1 : arg1.IsWhole) (arg2 : Memref sig .tc .vmem S500x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x48 .f32) (harg6 : arg6.IsWhole)
    (arg7 : Memref sig .tc .vmem S1x48 .f32) (harg7 : arg7.IsWhole) (arg8 : Memref sig .tc .vmem S2000x48 .f32) (harg8 : arg8.IsWhole)
    (x0 : Vec F S2000x500 .f32) (x1 : Vec F S500x256 .f32) (x2 : Vec F S1x256 .f32) (x3 : Vec F S256x256 .f32)
    (x4 : Vec F S1x256 .f32) (x5 : Vec F S256x48 .f32) (x6 : Vec F S1x48 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.Kernel.Body

end
-- ==== Proof.KernelRun.lean ====
/-
  The run of the program: the region's proof data (each input buffer keeps its block, the output buffer ends at the
  three layers' value of the point's blocks), the body's obligation at every grid point from the body's triple, and
  the launch: every weakly fair execution of @main ends, the staged arrays holding what the library computes from the
  proof data and every other buffer what the later host lines leave there.  Read at the arguments this is the frame:
  the rows x are a staged input, never written back; the other arguments are touched by no line that writes.
-/
import proofs.«150733_j30562987278368_2_alg».proof.Proof.KernelAround
import proofs.«150733_j30562987278368_2_alg».proof.Proof.KernelBody

set_option maxRecDepth 16384

noncomputable section

namespace Cert.Kernel.Run

open Cert.Kernel Cert.Kernel.Gen Cert.Kernel.Around Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: the rows' block moves with
    the point and is fetched at each; the parameters' blocks never move and are fetched once. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core c: the arrays as the region finds them; after the body at point t each input buffer at its block and
    the output buffer at the layers' value of the blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends; every staged array then holds what the library computes from the proof
    data, every other buffer what the later lines leave there. -/
theorem run_main : θ_run defs (onTc (τ := τ) (main (F := F))) (s₀ m ρ)
    (Pipeline.FramePost cfgs (dats m) 0 (Pipeline.afterTail₀ cfgs (dats m) 0 (V0 m) tailLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailLines) (hsub := sfx_sub) (hfresh := sfx_fresh) (hkeep := sfx_keeps)
    (hmain := hmain m Variants.none) (hA := A_eq m) (hΦ := fun _ _ => rfl)

/-- The post read at the program's result and arguments: the result is what the later lines compute from the region's
    output array and the launch contents; every argument ends as launched. -/
theorem run_args : θ_run defs (onTc (τ := τ) (main (F := F))) ⟨m, fun _ => 0, ρ⟩ (fun r => ∀ c : Dev nD,
      r.2.mem ((c.tc : Thread nD τ).loc main_v207) = Pipeline.afterTail₀ cfgs (dats m) 0 (V0 m) tailLines c main_v207
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).2 main_v207 (Pipeline.mem_restRefs_of main_v207 (by decide) (by decide)),
      ((h c).1 0).trans (((dats m 0 c).arrAt_in 0 rfl _).trans ((A_eq m c 0).trans (V_early m c main_arg0 (by decide)))),
      ((h c).2 main_arg1 (Pipeline.mem_restRefs_of main_arg1 (by decide) (by decide))).trans
        ((tail_kept m (dats m) c main_arg1 (by decide) (by decide)).trans (V_early m c main_arg1 (by decide))),
      ((h c).2 main_arg2 (Pipeline.mem_restRefs_of main_arg2 (by decide) (by decide))).trans
        ((tail_kept m (dats m) c main_arg2 (by decide) (by decide)).trans (V_early m c main_arg2 (by decide))),
      ((h c).2 main_arg3 (Pipeline.mem_restRefs_of main_arg3 (by decide) (by decide))).trans
        ((tail_kept m (dats m) c main_arg3 (by decide) (by decide)).trans (V_early m c main_arg3 (by decide))),
      ((h c).2 main_arg4 (Pipeline.mem_restRefs_of main_arg4 (by decide) (by decide))).trans
        ((tail_kept m (dats m) c main_arg4 (by decide) (by decide)).trans (V_early m c main_arg4 (by decide))),
      ((h c).2 main_arg5 (Pipeline.mem_restRefs_of main_arg5 (by decide) (by decide))).trans
        ((tail_kept m (dats m) c main_arg5 (by decide) (by decide)).trans (V_early m c main_arg5 (by decide))),
      ((h c).2 main_arg6 (Pipeline.mem_restRefs_of main_arg6 (by decide) (by decide))).trans
        ((tail_kept m (dats m) c main_arg6 (by decide) (by decide)).trans (V_early m c main_arg6 (by decide))),
      ((h c).2 main_arg7 (Pipeline.mem_restRefs_of main_arg7 (by decide) (by decide))).trans
        ((tail_kept m (dats m) c main_arg7 (by decide) (by decide)).trans (V_early m c main_arg7 (by decide)))⟩)
    (run_main m ρ)

/-- The frame: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_args m ρ)

end Cert.Kernel.Run

end
-- ==== Proof.KernelIdealAround.lean ====
/-
  The launch side of the program: one region (the three-layer perceptron, one block of 2000 rows per grid point)
  between six host lines that lay out the parameters (three transposes, three biases cast to one row) and the
  propagation that follows it, which is host lines only.

  What the frame needs to know of the later lines is little: each allocates nothing, each writes one result buffer
  of its own, and none of those results is an argument of the program or an array the region stages (the arguments
  and the staged arrays are the first fifteen buffers of device memory; every later line writes a buffer after them).
  So the arguments end as launched, and the staged arrays hold after the program what the region left in them.
-/
import proofs.«150733_j30562987278368_2_alg».proof.Proof.Gen.KernelIdeal.Launch
import proofs.«150733_j30562987278368_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Around

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

/-! ## The later lines write late buffers only -/

/-- A host line that allocates nothing and writes only buffers after the first fifteen of its memory space. -/
structure Late (op : HloOp τ sig (Elt F)) : Prop where
  fresh : op.fresh = ∅
  late : ∀ r : Ref sig .tc, Proc.devRef (τ := τ) .tc r ∈ op.writes → 15 ≤ r.idx.val

/-- A line whose one written buffer is a late one. -/
theorem Late.of (op : HloOp τ sig (Elt F)) (y : Ref sig .tc) (hw : op.writes = {Proc.devRef .tc y}) (hf : op.fresh = ∅)
    (hy : 15 ≤ y.idx.val) : Late op :=
  ⟨hf, fun r hr => by
    rw [hw, Finset.mem_singleton] at hr
    rw [Proc.devRef_injective _ hr]; exact hy⟩

/-- The lines after the region, in the pieces @main is printed in. -/
abbrev tailLines : List (List (HloOp τ sig (Elt F))) :=
  [main_part0_ops1, main_part0_ops2, main_part0_ops3, main_part1_ops0, main_part2_ops0, main_part3_ops0, main_part4_ops0]

theorem late_a : (main_part0_ops1 : List (HloOp τ sig (Elt F))).Forall Late := by
  simp only [List.Forall]
  repeat' apply And.intro
  all_goals exact Late.of _ _ rfl rfl (by decide)
theorem late_b : (main_part0_ops2 : List (HloOp τ sig (Elt F))).Forall Late := by
  simp only [List.Forall]
  repeat' apply And.intro
  all_goals exact Late.of _ _ rfl rfl (by decide)
theorem late_c : (main_part0_ops3 : List (HloOp τ sig (Elt F))).Forall Late := by
  simp only [List.Forall]
  repeat' apply And.intro
  all_goals exact Late.of _ _ rfl rfl (by decide)
theorem late_d : (main_part1_ops0 : List (HloOp τ sig (Elt F))).Forall Late := by
  simp only [List.Forall]
  repeat' apply And.intro
  all_goals exact Late.of _ _ rfl rfl (by decide)
theorem late_e : (main_part2_ops0 : List (HloOp τ sig (Elt F))).Forall Late := by
  simp only [List.Forall]
  repeat' apply And.intro
  all_goals exact Late.of _ _ rfl rfl (by decide)
theorem late_f : (main_part3_ops0 : List (HloOp τ sig (Elt F))).Forall Late := by
  simp only [List.Forall]
  repeat' apply And.intro
  all_goals exact Late.of _ _ rfl rfl (by decide)
theorem late_g : (main_part4_ops0 : List (HloOp τ sig (Elt F))).Forall Late := by
  simp only [List.Forall]
  repeat' apply And.intro
  all_goals exact Late.of _ _ rfl rfl (by decide)

/-- Every later line is late. -/
theorem tail_late : ∀ ops ∈ (tailLines : List (List (HloOp τ sig (Elt F)))), ∀ op ∈ ops, Late op := by
  intro ops hops
  simp only [List.mem_cons, List.mem_nil_iff, or_false] at hops
  rcases hops with rfl | rfl | rfl | rfl | rfl | rfl | rfl
  · exact List.forall_iff_forall_mem.mp late_a
  · exact List.forall_iff_forall_mem.mp late_b
  · exact List.forall_iff_forall_mem.mp late_c
  · exact List.forall_iff_forall_mem.mp late_d
  · exact List.forall_iff_forall_mem.mp late_e
  · exact List.forall_iff_forall_mem.mp late_f
  · exact List.forall_iff_forall_mem.mp late_g

/-- Every later line touches TensorCore references only. -/
theorem tail_tc : ∀ ops ∈ (tailLines : List (List (HloOp τ sig (Elt F)))), ∀ op ∈ ops, op.bufs ⊆ StableHlo.tcRefs τ sig := by
  intro ops hops
  simp only [List.mem_cons, List.mem_nil_iff, or_false] at hops
  rcases hops with rfl | rfl | rfl | rfl | rfl | rfl | rfl
  · exact List.forall_iff_forall_mem.mp main_part0_ops1_sub
  · exact List.forall_iff_forall_mem.mp main_part0_ops2_sub
  · exact List.forall_iff_forall_mem.mp main_part0_ops3_sub
  · exact List.forall_iff_forall_mem.mp main_part1_ops0_sub
  · exact List.forall_iff_forall_mem.mp main_part2_ops0_sub
  · exact List.forall_iff_forall_mem.mp main_part3_ops0_sub
  · exact List.forall_iff_forall_mem.mp main_part4_ops0_sub

/-- The arrays the region stages are among the first fifteen buffers. -/
theorem arr_early : ∀ w : Fin 8, (Pipeline.arrRef spec0 w).idx.val < 15 := by decide

/-- No later line writes an early buffer. -/
theorem tail_not_writes (r : Ref sig .tc) (hr : r.idx.val < 15) :
    ∀ op ∈ (tailLines : List (List (HloOp τ sig (Elt F)))).flatten, Proc.devRef (τ := τ) .tc r ∉ op.writes := by
  intro op hop hmem
  obtain ⟨ops, hops, hin⟩ := List.mem_flatten.mp hop
  have := (tail_late ops hops op hin).late r hmem
  omega

theorem sfx_sub : ∀ ops ∈ (tailLines : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_tc ops hops op hop)

theorem sfx_fresh : ∀ ops ∈ (tailLines : List (List (HloOp τ sig (Elt F)))), ∀ op ∈ ops, op.fresh = ∅ :=
  fun ops hops op hop => (tail_late ops hops op hop).fresh

theorem sfx_keeps : ∀ ops ∈ (tailLines : List (List (HloOp τ sig (Elt F)))), ∀ op ∈ ops,
    ∀ w, Proc.devRef .tc (Pipeline.arrRef spec0 w) ∉ op.writes := by
  intro ops hops op hop w hmem
  have h1 := (tail_late ops hops op hop).late _ hmem
  have h2 := arr_early w
  omega

/-! ## @main around the region -/

variable (m : (ℓ : Loc nD τ sig) → Buf (Elt F) ℓ) (ρ : Dev nD → PrngReg)

/-- What core c's buffers hold when the region is entered: the launch contents after the six lines that lay out
    the parameters. -/
abbrev V0 (c : Dev nD) : Valuation τ sig (Elt F) := StableHlo.after (List.flatten [main_part0_ops0]) (fun b => m (c, b))
/-- The same read at a TensorCore reference. -/
abbrev V (c : Dev nD) (b : Ref sig .tc) : Buf (Elt F) ((c : Thread nD τ).loc b) := V0 m c (Proc.devRef .tc b)

theorem head_fresh : (main_part0_ops0 : List (HloOp τ sig (Elt F))).Forall fun op => op.fresh = ∅ := by
  simp only [List.Forall]; repeat' constructor

/-- @main is the parameter lines, the region, and the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailLines : List (List (HloOp τ sig (Elt F)))).map StableHlo.seq)) :=
  Pipeline.hmain_around cfgs 0 defs₀ 𝒱₀ m main [main_part0_ops0] tailLines (by simp only [List.Forall]; exact main_part0_ops0_sub)
    (by simp only [List.Forall]; exact head_fresh) main_chain_windows

/-- Two references whose positions lie in different ranges are different buffers of the device. -/
theorem devRef_ne_of_range {r y : Ref sig .tc} (hr : r.idx.val < 8 ∨ 13 < r.idx.val) (hy : 8 ≤ y.idx.val ∧ y.idx.val ≤ 13) :
    Proc.devRef (τ := τ) .tc r ≠ Proc.devRef .tc y := fun e => by
  have h := congrArg (fun x : Ref sig .tc => x.idx.val) (Proc.devRef_injective _ e)
  omega

/-- A buffer the parameter lines do not write is found by the region as launched: the six lines write buffers 8 to 13. -/
theorem V_early (c : Dev nD) (r : Ref sig .tc) (hr : r.idx.val < 8 ∨ 13 < r.idx.val) :
    V m c r = m ((c : Thread nD τ).loc r) :=
  StableHlo.after_of_forall_not_mem (b := Proc.devRef .tc r) _ _ (List.forall_iff_forall_mem.mp (by
    simp only [main_part0_ops0, List.flatten_cons, List.flatten_nil, List.append_nil, List.cons_append,
      List.nil_append, List.Forall, StableHlo.unary_writes, StableHlo.reshape_writes, Finset.mem_singleton]
    repeat' apply And.intro
    all_goals exact devRef_ne_of_range hr (by decide)))

/-- An early buffer that is no staged array ends, after the later lines, as the region found it. -/
theorem tail_kept (dats : (p : Fin 1) → (c : Dev nD) → Dat τ (Elt F) Unit ℕ (UR sig nD τ) ℕ (cfgs p) c) (c : Dev nD)
    (r : Ref sig .tc) (hr : r.idx.val < 15) (hne : ∀ w, Pipeline.arrRef spec0 w ≠ r) :
    Pipeline.afterTail₀ cfgs dats 0 (V0 m) tailLines c r = V m c r := by
  unfold Pipeline.afterTail₀
  rw [StableHlo.after_of_forall_not_mem (b := Proc.devRef .tc r) _ _ (tail_not_writes r hr),
    Pipeline.withArrays_of_ne _ c (V0 m c) _ r hne]

end Cert.KernelIdeal.Around

end
-- ==== Proof.KernelIdealBody.lean ====
/-
  The body of the region at one grid point: it loads the block of 2000 rows, the three transposed weight matrices
  and the three bias rows, computes the three dense layers, and stores the [2000, 48] result over the whole of its
  output buffer (after one load of that buffer whose value it never uses).  So after the body every input buffer
  holds what it held, and the output buffer holds the layers' value of the seven loaded blocks, whatever it held before.
-/
import proofs.«150733_j30562987278368_2_alg».proof.Proof.Gen.KernelIdeal.Launch
import proofs.«150733_j30562987278368_2_alg».proof.Proof.Gen.KernelIdeal.Skeleton
import proofs.«150733_j30562987278368_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The whole-buffer rectangles the body loads and stores through -/

abbrev rX : Rect S2000x500 := Rect.unit (s := S2000x500) ![0, 0] S2000x500.size inb_S2000x500_S2000x500_0_0
abbrev rW1 : Rect S500x256 := Rect.unit (s := S500x256) ![0, 0] S500x256.size inb_S500x256_S500x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rW3 : Rect S256x48 := Rect.unit (s := S256x48) ![0, 0] S256x48.size inb_S256x48_S256x48_0_0
abbrev rB3 : Rect S1x48 := Rect.unit (s := S1x48) ![0, 0] S1x48.size inb_S1x48_S1x48_0_0
abbrev rO : Rect S2000x48 := Rect.unit (s := S2000x48) ![0, 0] S2000x48.size inb_S2000x48_S2000x48_0_0

/-- What the output buffer holds after the body, from the seven input buffers' contents: its one store, of the
    three layers' value of what was loaded. -/
def outBlock (x : Vec F S2000x500 .f32) (w1 : Vec F S500x256 .f32) (b1 : Vec F S1x256 .f32) (w2 : Vec F S256x256 .f32)
    (b2 : Vec F S1x256 .f32) (w3 : Vec F S256x48 .f32) (b3 : Vec F S1x48 .f32) : Vec F S2000x48 .f32 :=
  View.canon [⟨rO, k0_pay1 (View.ld x rX) (View.ld w1 rW1) (View.ld b1 rB) (View.ld w2 rW2) (View.ld b2 rB) (View.ld w3 rW3) (View.ld b3 rB3)⟩]

/-- The one store is through the whole buffer, so it covers it. -/
theorem cover_out (p0 : Vec F S2000x48 .f32) (y : S2000x48.Idx) :
    ∃ pc ∈ ([⟨rO, p0⟩] : List (View.Piece (Elt F) S2000x48 .f32)), y ∈ pc.1.set :=
  View.cover_of_tiled [⟨rO, p0⟩] S2000x48.size (by rfl) y

set_option maxHeartbeats 4000000 in
/-- The body on whole staging buffers, the inputs' at contents it reads and the output's at anything, runs to the
    continuation with the inputs' as they were and the output's at outBlock of them. -/
theorem sound_kernel (c : Dev nD) (E : Set ℕ) (i : grid0.Coords)
    (arg1 : Memref sig .tc .vmem S2000x500 .f32) (harg1 : arg1.IsWhole) (arg2 : Memref sig .tc .vmem S500x256 .f32) (harg2 : arg2.IsWhole)
    (arg3 : Memref sig .tc .vmem S1x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S256x48 .f32) (harg6 : arg6.IsWhole)
    (arg7 : Memref sig .tc .vmem S1x48 .f32) (harg7 : arg7.IsWhole) (arg8 : Memref sig .tc .vmem S2000x48 .f32) (harg8 : arg8.IsWhole)
    (x0 : Vec F S2000x500 .f32) (x1 : Vec F S500x256 .f32) (x2 : Vec F S1x256 .f32) (x3 : Vec F S256x256 .f32)
    (x4 : Vec F S1x256 .f32) (x5 : Vec F S256x48 .f32) (x6 : Vec F S1x48 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E
          (cc0__mlp_kernel i arg1 harg1 arg2 harg2 arg3 harg3 arg4 harg4 arg5 harg5 arg6 harg6 arg7 harg7 arg8 harg8) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover_out _)

end Cert.KernelIdeal.Body

end
-- ==== Proof.KernelIdealRun.lean ====
/-
  The run of the program: the region's proof data (each input buffer keeps its block, the output buffer ends at the
  three layers' value of the point's blocks), the body's obligation at every grid point from the body's triple, and
  the launch: every weakly fair execution of @main ends, the staged arrays holding what the library computes from the
  proof data and every other buffer what the later host lines leave there.  Read at the arguments this is the frame:
  the rows x are a staged input, never written back; the other arguments are touched by no line that writes.
-/
import proofs.«150733_j30562987278368_2_alg».proof.Proof.KernelIdealAround
import proofs.«150733_j30562987278368_2_alg».proof.Proof.KernelIdealBody

set_option maxRecDepth 16384

noncomputable section

namespace Cert.KernelIdeal.Run

open Cert.KernelIdeal Cert.KernelIdeal.Gen Cert.KernelIdeal.Around Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not: the rows' block moves with
    the point and is fetched at each; the parameters' blocks never move and are fetched once. -/

theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- On core c: the arrays as the region finds them; after the body at point t each input buffer at its block and
    the output buffer at the layers' value of the blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t
    = outBlock (iblk m c 0 t) (iblk m c 1 t) (iblk m c 2 t) (iblk m c 3 t) (iblk m c 4 t) (iblk m c 5 t) (iblk m c 6 t) := by dsimp only [dats]

theorem before0 (c : Dev nD) (t : Fin cfg0.N) (d) : (dats m 0 c).before 0 t d = iblk m c 0 t := before_in0 m (dats m 0 c) (A_eq m c 0) (after0 m c) t d
theorem before1 (c : Dev nD) (t : Fin cfg0.N) (d) : (dats m 0 c).before 1 t d = iblk m c 1 t := before_in1 m (dats m 0 c) (A_eq m c 1) (after1 m c) t d
theorem before2 (c : Dev nD) (t : Fin cfg0.N) (d) : (dats m 0 c).before 2 t d = iblk m c 2 t := before_in2 m (dats m 0 c) (A_eq m c 2) (after2 m c) t d
theorem before3 (c : Dev nD) (t : Fin cfg0.N) (d) : (dats m 0 c).before 3 t d = iblk m c 3 t := before_in3 m (dats m 0 c) (A_eq m c 3) (after3 m c) t d
theorem before4 (c : Dev nD) (t : Fin cfg0.N) (d) : (dats m 0 c).before 4 t d = iblk m c 4 t := before_in4 m (dats m 0 c) (A_eq m c 4) (after4 m c) t d
theorem before5 (c : Dev nD) (t : Fin cfg0.N) (d) : (dats m 0 c).before 5 t d = iblk m c 5 t := before_in5 m (dats m 0 c) (A_eq m c 5) (after5 m c) t d
theorem before6 (c : Dev nD) (t : Fin cfg0.N) (d) : (dats m 0 c).before 6 t d = iblk m c 6 t := before_in6 m (dats m 0 c) (A_eq m c 6) (after6 m c) t d

/-! ## The body obligation -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 1000000 in
/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends; every staged array then holds what the library computes from the proof
    data, every other buffer what the later lines leave there. -/
theorem run_main : θ_run defs (onTc (τ := τ) (main (F := F))) (s₀ m ρ)
    (Pipeline.FramePost cfgs (dats m) 0 (Pipeline.afterTail₀ cfgs (dats m) 0 (V0 m) tailLines)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailLines) (hsub := sfx_sub) (hfresh := sfx_fresh) (hkeep := sfx_keeps)
    (hmain := hmain m Variants.none) (hA := A_eq m) (hΦ := fun _ _ => rfl)

/-- The post read at the program's result and arguments: the result is what the later lines compute from the region's
    output array and the launch contents; every argument ends as launched. -/
theorem run_args : θ_run defs (onTc (τ := τ) (main (F := F))) ⟨m, fun _ => 0, ρ⟩ (fun r => ∀ c : Dev nD,
      r.2.mem ((c.tc : Thread nD τ).loc main_v207) = Pipeline.afterTail₀ cfgs (dats m) 0 (V0 m) tailLines c main_v207
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c).2 main_v207 (Pipeline.mem_restRefs_of main_v207 (by decide) (by decide)),
      ((h c).1 0).trans (((dats m 0 c).arrAt_in 0 rfl _).trans ((A_eq m c 0).trans (V_early m c main_arg0 (by decide)))),
      ((h c).2 main_arg1 (Pipeline.mem_restRefs_of main_arg1 (by decide) (by decide))).trans
        ((tail_kept m (dats m) c main_arg1 (by decide) (by decide)).trans (V_early m c main_arg1 (by decide))),
      ((h c).2 main_arg2 (Pipeline.mem_restRefs_of main_arg2 (by decide) (by decide))).trans
        ((tail_kept m (dats m) c main_arg2 (by decide) (by decide)).trans (V_early m c main_arg2 (by decide))),
      ((h c).2 main_arg3 (Pipeline.mem_restRefs_of main_arg3 (by decide) (by decide))).trans
        ((tail_kept m (dats m) c main_arg3 (by decide) (by decide)).trans (V_early m c main_arg3 (by decide))),
      ((h c).2 main_arg4 (Pipeline.mem_restRefs_of main_arg4 (by decide) (by decide))).trans
        ((tail_kept m (dats m) c main_arg4 (by decide) (by decide)).trans (V_early m c main_arg4 (by decide))),
      ((h c).2 main_arg5 (Pipeline.mem_restRefs_of main_arg5 (by decide) (by decide))).trans
        ((tail_kept m (dats m) c main_arg5 (by decide) (by decide)).trans (V_early m c main_arg5 (by decide))),
      ((h c).2 main_arg6 (Pipeline.mem_restRefs_of main_arg6 (by decide) (by decide))).trans
        ((tail_kept m (dats m) c main_arg6 (by decide) (by decide)).trans (V_early m c main_arg6 (by decide))),
      ((h c).2 main_arg7 (Pipeline.mem_restRefs_of main_arg7 (by decide) (by decide))).trans
        ((tail_kept m (dats m) c main_arg7 (by decide) (by decide)).trans (V_early m c main_arg7 (by decide)))⟩)
    (run_main m ρ)

/-- The frame: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_args m ρ)

end Cert.KernelIdeal.Run

end
-- ==== Proof.PropagateK.lean ====
/-
  The propagation that follows the perceptron, as one function of the edge array e : i32[2, 1600000] and the node
  features h : f32[50000, 48], written with the program's own host operations.

  Row 1 of e lists the edges' targets and row 0 their sources; to both the self loops 0 .. 49999 are appended.  deg(n)
  counts the edges into n (a scatter-add of ones), dinv(n) is deg(n)^(-1/2) where deg(n) > 0 and 0 elsewhere, and an
  edge's weight is dinv(source) * dinv(target).  One step takes h' to  0.9 * A(h') + 0.1 * h,  where row n of A(h') is
  the sum over the edges into n of weight * (row source of h') (a gather of rows, a product, a scatter-add into zeros);
  the result is ten steps from h.  Indices pass through the negative-index wrap (i < 0 reads i + 50000) the gathers
  are lowered with.  Everything after the two endpoint vectors is stated over them as parameters (s the sources, d the
  targets).  Nothing is proved here about what these operations compute: both programs run exactly these lines, so it
  is enough to name the function.
-/
import proofs.«150733_j30562987278368_2_alg».proof.KernelIdeal
import proofs.«150733_j30562987278368_2_alg».proof.Proof.Gen.KernelIdeal

noncomputable section

namespace Cert.KernelIdeal.Propagate

open Cert.KernelIdeal Cert.KernelIdeal.Gen Idealize.ShloMosaic Idealize.ShloMosaic.TcCoe

variable {F : FTy → Type} [FloatOps F]

/-- The edges' sources followed by the self loops. -/
def srcs (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The edges' targets followed by the self loops. -/
def dsts (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- The negative-index wrap of a gather's indices: i < 0 reads i + 50000. -/
def wrap (v : (⟨S1650000, .i32⟩ : BufTy).Contents (Elt F)) : (⟨S1650000, .i32⟩ : BufTy).Contents (Elt F) :=
  select (cmpi .slt v (broadcastInDim S1650000 ![] bcast_S_S1650000 (constantI S_ 32 0#32))) (addi v (broadcastInDim S1650000 ![] bcast_S_S1650000 (constantI S_ 32 50000#32))) v

/-- deg(n): the number of edges into n, self loop included. -/
def deg (d : (⟨S1650000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 d) (broadcastInDim S1650000 ![] bcast_S_S1650000 (constant S_ .f32 0x3F800000#32))

/-- dinv(n): deg(n)^(-1/2) where deg(n) > 0, else 0. -/
def dinv (d : (⟨S1650000, .i32⟩ : BufTy).Contents (Elt F)) : (⟨S50000, .f32⟩ : BufTy).Contents (Elt F) :=
  select (cmpf .ogt (deg d) (broadcastInDim S50000 ![] bcast_S_S50000 (constant S_ .f32 0x00000000#32))) (Host.rsqrt (deg d)) (broadcastInDim S50000 ![] bcast_S_S50000 (id (constant S_ .f32 0x00000000#32)))

/-- An edge's weight dinv(source) * dinv(target), as a column. -/
def weight (s d : (⟨S1650000, .i32⟩ : BufTy).Contents (Elt F)) : (⟨S1650000x1, .f32⟩ : BufTy).Contents (Elt F) :=
  broadcastInDim S1650000x1 ![0] bcast_S1650000_S1650000x1_0 (mulf (Host.gather gather_S50000_S1650000x1_S1650000_n_0_n_n_0_1_1 (dinv d) (broadcastInDim S1650000x1 ![0] bcast_S1650000_S1650000x1_0 (wrap s))) (Host.gather gather_S50000_S1650000x1_S1650000_n_0_n_n_0_1_1 (dinv d) (broadcastInDim S1650000x1 ![0] bcast_S1650000_S1650000x1_0 (wrap d))))

/-- One step: 0.9 * (the weighted sum of the sources' rows of h' over the edges into each node) + 0.1 * h. -/
def step (s d : (⟨S1650000, .i32⟩ : BufTy).Contents (Elt F)) (h h' : (⟨S50000x48, .f32⟩ : BufTy).Contents (Elt F)) : (⟨S50000x48, .f32⟩ : BufTy).Contents (Elt F) :=
  addf (mulf (broadcastInDim S50000x48 ![] bcast_S_S50000x48 (constant S_ .f32 0x3F666666#32)) (Host.scatterAdd scatter_S50000x48_S1650000x1_S1650000x48_1_0_0_1 (broadcastInDim S50000x48 ![] bcast_S_S50000x48 (constant S_ .f32 0x00000000#32)) (broadcastInDim S1650000x1 ![0] bcast_S1650000_S1650000x1_0 d) (mulf (Host.gather gather_S50000x48_S1650000x1_S1650000x48_1_0_n_n_0_1_148 h' (broadcastInDim S1650000x1 ![0] bcast_S1650000_S1650000x1_0 (wrap s))) (broadcastInDim S1650000x48 ![0, 1] bcast_S1650000x1_S1650000x48_0_1 (weight s d))))) (mulf (broadcastInDim S50000x48 ![] bcast_S_S50000x48 (constant S_ .f32 0x3DCCCCCD#32)) h)

/-- Ten steps from h, over given endpoint vectors. -/
def propagateOf (s d : (⟨S1650000, .i32⟩ : BufTy).Contents (Elt F)) (h : (⟨S50000x48, .f32⟩ : BufTy).Contents (Elt F)) : (⟨S50000x48, .f32⟩ : BufTy).Contents (Elt F) :=
  step s d h (step s d h (step s d h (step s d h (step s d h (step s d h (step s d h (step s d h (step s d h (step s d h h)))))))))

/-- Ten steps from h along the edges of e. -/
def propagate (e : (⟨S2x1600000, .i32⟩ : BufTy).Contents (Elt F)) (h : (⟨S50000x48, .f32⟩ : BufTy).Contents (Elt F)) : (⟨S50000x48, .f32⟩ : BufTy).Contents (Elt F) :=
  propagateOf (srcs e) (dsts e) h

end Cert.KernelIdeal.Propagate

end
-- ==== Proof.KernelIdealTail.lean ====
/-
  What the later host lines of the kernel program compute: from any contents W of the buffers, the last result buffer
  ends at the propagation of W's edge array and W's perceptron output.

  The first seven later lines cut the edge array's two rows and append the self loops to each: they give the two
  endpoint vectors.  Every line after them is read off in one pass as a function of those two vectors and of the
  perceptron output: the degrees, dinv, the edge weights, then ten identical steps.
-/
import proofs.«150733_j30562987278368_2_alg».proof.Proof.KernelIdealAround
import proofs.«150733_j30562987278368_2_alg».proof.Proof.PropagateK
import Idealize.ShloMosaic.Lib.StableHlo.Run

set_option maxRecDepth 16384

noncomputable section

namespace Cert.KernelIdeal.TailValue

open Cert.KernelIdeal Cert.KernelIdeal.Gen Cert.KernelIdeal.Around Cert.KernelIdeal.Propagate
open Idealize.ShloMosaic Idealize.ShloMosaic.TcCoe Idealize.ShloMosaic.StableHlo

variable {F : FTy → Type} [FloatOps F]

/-- The later lines, printed in seven pieces, are the seven lines that build the endpoint vectors followed by all the others. -/
theorem lines_split : (tailLines : List (List (HloOp τ sig (Elt F)))).flatten
    = (hostOps1 : List (HloOp τ sig (Elt F))).take 7 ++ ((hostOps1 : List (HloOp τ sig (Elt F))).drop 7 ++ hostOps1_1 ++ hostOps1_2) := by
  rfl

/-- After the seven lines the sources' buffer holds the edge array's row 0 with the self loops appended. -/
theorem head_srcs (V : Valuation τ sig (Elt F)) :
    after ((hostOps1 : List (HloOp τ sig (Elt F))).take 7) V (Proc.devRef .tc main_v12) = srcs (V (Proc.devRef .tc main_arg1)) := by
  simp only [hostOps1, List.take_succ_cons, List.take_zero]
  after_results <;> rfl

/-- and the targets' buffer its row 1 with the self loops appended. -/
theorem head_dsts (V : Valuation τ sig (Elt F)) :
    after ((hostOps1 : List (HloOp τ sig (Elt F))).take 7) V (Proc.devRef .tc main_v13) = dsts (V (Proc.devRef .tc main_arg1)) := by
  simp only [hostOps1, List.take_succ_cons, List.take_zero]
  after_results <;> rfl

/-- The seven lines leave the perceptron's output where it is. -/
theorem head_h (V : Valuation τ sig (Elt F)) :
    after ((hostOps1 : List (HloOp τ sig (Elt F))).take 7) V (Proc.devRef .tc main_v6) = V (Proc.devRef .tc main_v6) := by
  simp only [hostOps1, List.take_succ_cons, List.take_zero]
  after_results <;> rfl

set_option maxHeartbeats 100000000 in
/-- All the other lines: the result is ten steps over the two endpoint vectors, from the perceptron's output. -/
theorem rest_value (V : Valuation τ sig (Elt F)) :
    after ((hostOps1 : List (HloOp τ sig (Elt F))).drop 7 ++ hostOps1_1 ++ hostOps1_2) V (Proc.devRef .tc main_v207)
      = propagateOf (V (Proc.devRef .tc main_v12)) (V (Proc.devRef .tc main_v13)) (V (Proc.devRef .tc main_v6)) := by
  simp only [hostOps1, hostOps1_1, hostOps1_2, List.drop_succ_cons, List.drop_zero, List.cons_append, List.nil_append]
  after_results_simp <;> rfl

/-- The later lines together. -/
theorem tail_value (W : Valuation τ sig (Elt F)) :
    after (tailLines : List (List (HloOp τ sig (Elt F)))).flatten W (Proc.devRef .tc main_v207)
      = propagate (W (Proc.devRef .tc main_arg1)) (W (Proc.devRef .tc main_v6)) := by
  rw [lines_split, StableHlo.after_append, rest_value, head_srcs, head_dsts, head_h]
  rfl

end Cert.KernelIdeal.TailValue

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«150733_j30562987278368_2_alg».proof.Proof.LibDense
import proofs.«150733_j30562987278368_2_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.KernelPayload.lean ====
/-
  The three-layer perceptron on rows, and the body's payload as that function of its loaded blocks at the ideal values.

  mlp(x)(r, n) = sum_k h2(r, k) * w3(k, n) + b3(n),  h2 = relu(h1 @ w2 + b2),  h1 = relu(x @ w1 + b1),  the weights
  given already transposed and the biases as vectors.  Every entry depends on row r of x only, layer by layer, which is
  what lets a block of 2000 rows be computed by itself.  The body spells each layer with operands narrowed to bf16 (the
  identity at the ideal values), a matrix product into a zero splat and the bias row repeated down the rows; its
  weights pass through an identity cast first.
-/
import proofs.«150733_j30562987278368_2_alg».proof.Proof.Gen.KernelIdeal.Skeleton
import proofs.«150733_j30562987278368_2_alg».proof.Proof.LibLayers

noncomputable section

open scoped BigOperators

namespace Cert.Mlp

open Idealize.ShloMosaic Idealize.ShloMosaic.ValueIdx Cert.LibDense Cert.LibLayers

/-- The perceptron on A rows. -/
def mlp (A : Nat) (x : (⟨2, ![A, 500]⟩ : Shape).Idx → EReal)
    (w1 : (⟨2, ![500, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 48]⟩ : Shape).Idx → EReal) (b3 : (⟨1, ![48]⟩ : Shape).Idx → EReal) : (⟨2, ![A, 48]⟩ : Shape).Idx → EReal :=
  dense A 256 48 (reluDense A 256 256 (reluDense A 500 256 x w1 b1) w2 b2) w3 b3

/-- Entry (p, q) of the perceptron depends on row p of its input only. -/
theorem mlp_row {A A' : Nat} (x : (⟨2, ![A, 500]⟩ : Shape).Idx → EReal) (x' : (⟨2, ![A', 500]⟩ : Shape).Idx → EReal)
    (w1 : (⟨2, ![500, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (w3 : (⟨2, ![256, 48]⟩ : Shape).Idx → EReal) (b3 : (⟨1, ![48]⟩ : Shape).Idx → EReal)
    (p : Fin A) (r : Fin A') (q : Fin 48) (h : ∀ k : Fin 500, x (ix2 p k) = x' (ix2 r k)) :
    mlp A x w1 b1 w2 b2 w3 b3 (ix2 p q) = mlp A' x' w1 b1 w2 b2 w3 b3 (ix2 r q) :=
  dense_row _ _ w3 b3 p r q fun k => reluDense_row _ _ w2 b2 p r k fun k' => reluDense_row x x' w1 b1 p r k' h

/-- The body's dense layer: the rows as loaded, the weights through an identity cast, both narrowed to bf16, the product
    into a zero splat, the bias row cast to itself and repeated down the rows. -/
theorem dense_body {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hw : (⟨2, ![K, N]⟩ : Shape).ShapeCasts ⟨2, ![K, N]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 (shapeCast ⟨2, ![K, N]⟩ w hw) hlt)
        (constant ⟨2, ![A, N]⟩ .f32 0x00000000#32))
      (broadcastTo ⟨2, ![A, N]⟩ (shapeCast ⟨2, ![1, N]⟩ b1 h1) hb) = dense A K N x w (rowVec b1) := by
  have h := dense_kernel_row x w b1 hlt (rfl : (⟨2, ![A, K]⟩ : Shape).ShapeCasts ⟨2, ![A, K]⟩) h1 hb
  rw [shapeCast_self x rfl] at h
  rw [shapeCast_self w hw]
  exact h

open Cert.KernelIdeal Cert.KernelIdeal.Gen in
/-- The body's payload, at the ideal values, is the perceptron of the loaded block of rows, with the loaded weights and
    the loaded bias rows read as vectors. -/
theorem payload_eq (x : Vec Ideal S2000x500 .f32) (w1 : Vec Ideal S500x256 .f32) (b1 : Vec Ideal S1x256 .f32)
    (w2 : Vec Ideal S256x256 .f32) (b2 : Vec Ideal S1x256 .f32) (w3 : Vec Ideal S256x48 .f32) (b3 : Vec Ideal S1x48 .f32) :
    k0_pay1 (F := Ideal) x w1 b1 w2 b2 w3 b3 = mlp 2000 x w1 (rowVec b1) w2 (rowVec b2) w3 (rowVec b3) := by
  have h1 : maximumf (addf (matmul dot_S2000x500_S500x256_S2000x256_1_0_0_1_n_n none (truncf .bf16 x bitsLt_bf16_f32) (truncf .bf16 (shapeCast S500x256 w1 shapeCasts_S500x256_S500x256) bitsLt_bf16_f32) (constant S2000x256 .f32 0x00000000#32)) (broadcastTo S2000x256 (shapeCast S1x256 b1 shapeCasts_S1x256_S1x256) broadcasts_S1x256_S2000x256)) (broadcast S2000x256 (Scalar.ofBits (F := Ideal) .f32 0x00000000#32))
      = reluDense 2000 500 256 x w1 (rowVec b1) :=
    (congrArg (fun v => maximumf v (broadcast S2000x256 (Scalar.ofBits (F := Ideal) .f32 0x00000000#32)))
      (dense_body (A := 2000) (K := 500) (N := 256) x w1 b1 bitsLt_bf16_f32 shapeCasts_S500x256_S500x256 shapeCasts_S1x256_S1x256 broadcasts_S1x256_S2000x256)).trans
      (relu_kernel (s := ⟨2, ![2000, 256]⟩) _)
  have h2 : ∀ v : FVec Ideal S2000x256 .f32, maximumf (addf (matmul dot_S2000x256_S256x256_S2000x256_1_0_0_1_n_n none (truncf .bf16 v bitsLt_bf16_f32) (truncf .bf16 (shapeCast S256x256 w2 shapeCasts_S256x256_S256x256) bitsLt_bf16_f32) (constant S2000x256 .f32 0x00000000#32)) (broadcastTo S2000x256 (shapeCast S1x256 b2 shapeCasts_S1x256_S1x256) broadcasts_S1x256_S2000x256)) (broadcast S2000x256 (Scalar.ofBits (F := Ideal) .f32 0x00000000#32))
      = reluDense 2000 256 256 v w2 (rowVec b2) := fun v =>
    (congrArg (fun u => maximumf u (broadcast S2000x256 (Scalar.ofBits (F := Ideal) .f32 0x00000000#32)))
      (dense_body (A := 2000) (K := 256) (N := 256) v w2 b2 bitsLt_bf16_f32 shapeCasts_S256x256_S256x256 shapeCasts_S1x256_S1x256 broadcasts_S1x256_S2000x256)).trans
      (relu_kernel (s := ⟨2, ![2000, 256]⟩) _)
  have h3 : ∀ v : FVec Ideal S2000x256 .f32, addf (matmul dot_S2000x256_S256x48_S2000x48_1_0_0_1_n_n none (truncf .bf16 v bitsLt_bf16_f32) (truncf .bf16 (shapeCast S256x48 w3 shapeCasts_S256x48_S256x48) bitsLt_bf16_f32) (constant S2000x48 .f32 0x00000000#32)) (broadcastTo S2000x48 (shapeCast S1x48 b3 shapeCasts_S1x48_S1x48) broadcasts_S1x48_S2000x48)
      = dense 2000 256 48 v w3 (rowVec b3) := fun v =>
    dense_body (A := 2000) (K := 256) (N := 48) v w3 b3 bitsLt_bf16_f32 shapeCasts_S256x48_S256x48 shapeCasts_S1x48_S1x48 broadcasts_S1x48_S2000x48
  exact ((congrArg (fun v : FVec Ideal S2000x256 .f32 => addf (matmul dot_S2000x256_S256x48_S2000x48_1_0_0_1_n_n none (truncf .bf16 (maximumf (addf (matmul dot_S2000x256_S256x256_S2000x256_1_0_0_1_n_n none (truncf .bf16 v bitsLt_bf16_f32) (truncf .bf16 (shapeCast S256x256 w2 shapeCasts_S256x256_S256x256) bitsLt_bf16_f32) (constant S2000x256 .f32 0x00000000#32)) (broadcastTo S2000x256 (shapeCast S1x256 b2 shapeCasts_S1x256_S1x256) broadcasts_S1x256_S2000x256)) (broadcast S2000x256 (Scalar.ofBits (F := Ideal) .f32 0x00000000#32))) bitsLt_bf16_f32) (truncf .bf16 (shapeCast S256x48 w3 shapeCasts_S256x48_S256x48) bitsLt_bf16_f32) (constant S2000x48 .f32 0x00000000#32)) (broadcastTo S2000x48 (shapeCast S1x48 b3 shapeCasts_S1x48_S1x48) broadcasts_S1x48_S2000x48)) h1).trans
    ((congrArg (fun v : FVec Ideal S2000x256 .f32 => addf (matmul dot_S2000x256_S256x48_S2000x48_1_0_0_1_n_n none (truncf .bf16 v bitsLt_bf16_f32) (truncf .bf16 (shapeCast S256x48 w3 shapeCasts_S256x48_S256x48) bitsLt_bf16_f32) (constant S2000x48 .f32 0x00000000#32)) (broadcastTo S2000x48 (shapeCast S1x48 b3 shapeCasts_S1x48_S1x48) broadcasts_S1x48_S2000x48)) (h2 _)).trans (h3 _)))

end Cert.Mlp

end
-- ==== Proof.KernelMlpValue.lean ====
/-
  What the region leaves in its output array, at the ideal values: the perceptron of the arrays it stages.

  The grid has 25 points; point t stages rows 2000 t .. 2000 t + 1999 of x and the whole of each parameter array, and
  writes back rows 2000 t .. 2000 t + 1999 of the output.  What it writes back is the perceptron of its block of rows;
  since an entry of the perceptron depends on one row of x only, that is the same block of the perceptron of all of x.
  The 25 blocks cover the output array (row r lies in block r / 2000), so the array ends at the perceptron of x.
  The parameter arrays were laid out by six host lines before the region: the transposes of the three weight matrices
  and the three biases cast to one row each; read back as vectors the rows are the biases.
-/
import proofs.«150733_j30562987278368_2_alg».proof.Proof.KernelIdealRun
import proofs.«150733_j30562987278368_2_alg».proof.Proof.KernelPayload
import Idealize.ShloMosaic.Lib.StableHlo.Run

set_option maxRecDepth 16384

noncomputable section

namespace Cert.KernelIdeal.MlpValue

open Cert.KernelIdeal Cert.KernelIdeal.Gen Cert.KernelIdeal.Around Cert.KernelIdeal.Body Cert.KernelIdeal.Run
open Idealize.ShloMosaic Idealize.ShloMosaic.TcCoe Idealize.ShloMosaic.ValueIdx Idealize.SL.Sem Idealize.ShloMosaic.StableHlo
open Cert.LibDense Cert.LibLayers Cert.Mlp
open Idealize.ShloMosaic.Pipeline (Dat)

variable (m : (ℓ : Loc nD τ sig) → Buf (Elt Ideal) ℓ)

theorem hz : (![0, 0] : Fin 2 → Nat) = fun _ => 0 := funext fun a => by fin_cases a <;> rfl

/-- The output buffer's one store through the whole buffer leaves the payload of the whole input buffers. -/
theorem outBlock_eq (x : Vec Ideal S2000x500 .f32) (w1 : Vec Ideal S500x256 .f32) (b1 : Vec Ideal S1x256 .f32)
    (w2 : Vec Ideal S256x256 .f32) (b2 : Vec Ideal S1x256 .f32) (w3 : Vec Ideal S256x48 .f32) (b3 : Vec Ideal S1x48 .f32) :
    outBlock (F := Ideal) x w1 b1 w2 b2 w3 b3 = k0_pay1 x w1 b1 w2 b2 w3 b3 := by
  unfold outBlock
  rw [View.canon_unit_zero hz]
  simp only [View.ld_unit_zero (S := S2000x500) hz, View.ld_unit_zero (S := S500x256) hz, View.ld_unit_zero (S := S1x256) hz,
    View.ld_unit_zero (S := S256x256) hz, View.ld_unit_zero (S := S256x48) hz, View.ld_unit_zero (S := S1x48) hz]

/-- The printed index maps over the grid: the rows' window and the output's are at block t on the row axis, block 0 on
    the other; every parameter window stays at block 0 of both axes. -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ (∀ a : Fin 2, win0_1.index t a = 0) ∧ (∀ a : Fin 2, win0_2.index t a = 0) ∧ (∀ a : Fin 2, win0_3.index t a = 0)
    ∧ (∀ a : Fin 2, win0_4.index t a = 0) ∧ (∀ a : Fin 2, win0_5.index t a = 0) ∧ (∀ a : Fin 2, win0_6.index t a = 0) :=
  (by decide +kernel : ∀ t : Fin grid0.N, _)

theorem t_lt (t : Fin cfg0.N) : t.val < 25 := by
  have h := t.isLt
  have e : cfg0.N = 25 := N_0
  omega

/-- Row p of point t's block is row 2000 t + p of the array. -/
def row (t : Fin cfg0.N) (p : Fin 2000) : Fin 50000 := ⟨t.val * 2000 + p.val, by have := t_lt t; have := p.isLt; omega⟩

/-! Each parameter window's block is its whole array, at every point. -/

theorem iblk1 (c : Dev nD) (t : Fin cfg0.N) : (iblk m c 1 t : S500x256.Idx → EReal) = V m c main_v0 := by
  obtain ⟨-, -, -, -, e1, e2, e3, e4, e5, e6⟩ := idx_facts t
  funext j
  show V m c main_v0 (((cfg0.win 1).blk t).view.emb j) = V m c main_v0 j
  refine congrArg (V m c main_v0) (funext fun a => Fin.ext ?_)
  match a with
  | ⟨0, _⟩ => show win0_1.index t (0 : Fin 2) * 500 + 1 * (j 0).val = (j 0).val; rw [e1 0]; omega
  | ⟨1, _⟩ => show win0_1.index t (1 : Fin 2) * 256 + 1 * (j 1).val = (j 1).val; rw [e1 1]; omega

theorem iblk2 (c : Dev nD) (t : Fin cfg0.N) : (iblk m c 2 t : S1x256.Idx → EReal) = V m c main_v3 := by
  obtain ⟨-, -, -, -, e1, e2, e3, e4, e5, e6⟩ := idx_facts t
  funext j
  show V m c main_v3 (((cfg0.win 2).blk t).view.emb j) = V m c main_v3 j
  refine congrArg (V m c main_v3) (funext fun a => Fin.ext ?_)
  match a with
  | ⟨0, _⟩ => show win0_2.index t (0 : Fin 2) * 1 + 1 * (j 0).val = (j 0).val; rw [e2 0]; omega
  | ⟨1, _⟩ => show win0_2.index t (1 : Fin 2) * 256 + 1 * (j 1).val = (j 1).val; rw [e2 1]; omega

theorem iblk3 (c : Dev nD) (t : Fin cfg0.N) : (iblk m c 3 t : S256x256.Idx → EReal) = V m c main_v1 := by
  obtain ⟨-, -, -, -, e1, e2, e3, e4, e5, e6⟩ := idx_facts t
  funext j
  show V m c main_v1 (((cfg0.win 3).blk t).view.emb j) = V m c main_v1 j
  refine congrArg (V m c main_v1) (funext fun a => Fin.ext ?_)
  match a with
  | ⟨0, _⟩ => show win0_3.index t (0 : Fin 2) * 256 + 1 * (j 0).val = (j 0).val; rw [e3 0]; omega
  | ⟨1, _⟩ => show win0_3.index t (1 : Fin 2) * 256 + 1 * (j 1).val = (j 1).val; rw [e3 1]; omega

theorem iblk4 (c : Dev nD) (t : Fin cfg0.N) : (iblk m c 4 t : S1x256.Idx → EReal) = V m c main_v4 := by
  obtain ⟨-, -, -, -, e1, e2, e3, e4, e5, e6⟩ := idx_facts t
  funext j
  show V m c main_v4 (((cfg0.win 4).blk t).view.emb j) = V m c main_v4 j
  refine congrArg (V m c main_v4) (funext fun a => Fin.ext ?_)
  match a with
  | ⟨0, _⟩ => show win0_4.index t (0 : Fin 2) * 1 + 1 * (j 0).val = (j 0).val; rw [e4 0]; omega
  | ⟨1, _⟩ => show win0_4.index t (1 : Fin 2) * 256 + 1 * (j 1).val = (j 1).val; rw [e4 1]; omega

theorem iblk5 (c : Dev nD) (t : Fin cfg0.N) : (iblk m c 5 t : S256x48.Idx → EReal) = V m c main_v2 := by
  obtain ⟨-, -, -, -, e1, e2, e3, e4, e5, e6⟩ := idx_facts t
  funext j
  show V m c main_v2 (((cfg0.win 5).blk t).view.emb j) = V m c main_v2 j
  refine congrArg (V m c main_v2) (funext fun a => Fin.ext ?_)
  match a with
  | ⟨0, _⟩ => show win0_5.index t (0 : Fin 2) * 256 + 1 * (j 0).val = (j 0).val; rw [e5 0]; omega
  | ⟨1, _⟩ => show win0_5.index t (1 : Fin 2) * 48 + 1 * (j 1).val = (j 1).val; rw [e5 1]; omega

theorem iblk6 (c : Dev nD) (t : Fin cfg0.N) : (iblk m c 6 t : S1x48.Idx → EReal) = V m c main_v5 := by
  obtain ⟨-, -, -, -, e1, e2, e3, e4, e5, e6⟩ := idx_facts t
  funext j
  show V m c main_v5 (((cfg0.win 6).blk t).view.emb j) = V m c main_v5 j
  refine congrArg (V m c main_v5) (funext fun a => Fin.ext ?_)
  match a with
  | ⟨0, _⟩ => show win0_6.index t (0 : Fin 2) * 1 + 1 * (j 0).val = (j 0).val; rw [e6 0]; omega
  | ⟨1, _⟩ => show win0_6.index t (1 : Fin 2) * 48 + 1 * (j 1).val = (j 1).val; rw [e6 1]; omega

/-- The rows' block at point t, read at (p, k), is the array at (2000 t + p, k). -/
theorem iblk0 (c : Dev nD) (t : Fin cfg0.N) (p : Fin 2000) (k : Fin 500) :
    iblk m c 0 t (ix2 p k) = V m c main_arg0 (ix2 (row t p) k) := by
  obtain ⟨e00, e01, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 2000 + 1 * p.val = t.val * 2000 + p.val; rw [e00]; omega
  | ⟨1, _⟩ => show win0_0.index t (1 : Fin 2) * 500 + 1 * k.val = k.val; rw [e01]; omega

/-- The perceptron of the arrays as the region finds them. -/
def G (c : Dev nD) : S50000x48.Idx → EReal :=
  mlp 50000 (V m c main_arg0) (V m c main_v0) (rowVec (V m c main_v3)) (V m c main_v1) (rowVec (V m c main_v4)) (V m c main_v2) (rowVec (V m c main_v5))

/-- What point t writes back is block t of G. -/
theorem flushed_eq (c : Dev nD) (t : Fin cfg0.N) :
    (dats m 0 c).flushed 7 t = ((cfg0.win 7).blk t).view.read (Elt Ideal) (G m c) := by
  show (cfg0.win 7).cut (grid0.coords t) ((dats m 0 c).after 7 t) = _
  rw [after7, outBlock_eq, payload_eq, iblk1, iblk2, iblk3, iblk4, iblk5, iblk6]
  obtain ⟨-, -, e70, e71, -⟩ := idx_facts t
  funext j
  obtain ⟨p, q, rfl⟩ : ∃ (p : Fin 2000) (q : Fin 48), j = ix2 p q := ⟨j 0, j 1, eq_ix2 j⟩
  show mlp 2000 (iblk m c 0 t) (V m c main_v0) (rowVec (V m c main_v3)) (V m c main_v1) (rowVec (V m c main_v4)) (V m c main_v2) (rowVec (V m c main_v5)) (ix2 p q)
    = G m c (((cfg0.win 7).blk t).view.emb (ix2 p q))
  have hemb : ((cfg0.win 7).blk t).view.emb (ix2 p q) = ix2 (row t p) q := funext fun a => Fin.ext (by
    match a with
    | ⟨0, _⟩ => show win0_7.index t (0 : Fin 2) * 2000 + 1 * p.val = t.val * 2000 + p.val; rw [e70]; omega
    | ⟨1, _⟩ => show win0_7.index t (1 : Fin 2) * 48 + 1 * q.val = q.val; rw [e71]; omega)
  rw [hemb]
  exact mlp_row _ _ _ _ _ _ _ _ p (row t p) q (fun k => iblk0 m c t p k)

/-- An index of the output array is in point t's block iff each coordinate is in the block's range on its axis. -/
theorem mem_blk (t : Fin cfg0.N) (i : S50000x48.Idx) :
    i ∈ ((cfg0.win 7).blk t).view.set ↔ ∀ a : Fin 2, win0_7.index t a * S2000x48.size a ≤ (i a).val ∧ (i a).val < win0_7.index t a * S2000x48.size a + S2000x48.size a := by
  show i ∈ ((View.whole main_v6).slice (win0_7.rect t)).set ↔ _
  rw [View.set_slice_whole, Rect.mem_set_unit]
  exact Iff.rfl

/-- Every index of the output array is in the block of the point its row falls in. -/
theorem cover (i : S50000x48.Idx) : ∃ t : Fin cfg0.N, (cfg0.win 7).flush t = true ∧ i ∈ ((cfg0.win 7).blk t).view.set := by
  have hi0 : (i 0).val < 50000 := (i 0).isLt
  have hi1 : (i 1).val < 48 := (i 1).isLt
  have hN : cfg0.N = 25 := N_0
  have hlt : (i 0).val / 2000 < cfg0.N := by omega
  refine ⟨⟨(i 0).val / 2000, hlt⟩, flush0_7 _, ?_⟩
  rw [mem_blk]
  obtain ⟨-, -, e70, e71, -⟩ := idx_facts ⟨(i 0).val / 2000, hlt⟩
  intro a
  match a with
  | ⟨0, _⟩ =>
    show win0_7.index ⟨(i 0).val / 2000, hlt⟩ (0 : Fin 2) * 2000 ≤ (i 0).val ∧ (i 0).val < win0_7.index ⟨(i 0).val / 2000, hlt⟩ (0 : Fin 2) * 2000 + 2000
    rw [e70]; show (i 0).val / 2000 * 2000 ≤ (i 0).val ∧ (i 0).val < (i 0).val / 2000 * 2000 + 2000; omega
  | ⟨1, _⟩ =>
    show win0_7.index ⟨(i 0).val / 2000, hlt⟩ (1 : Fin 2) * 48 ≤ (i 1).val ∧ (i 1).val < win0_7.index ⟨(i 0).val / 2000, hlt⟩ (1 : Fin 2) * 48 + 48
    rw [e71]; omega

/-- The output array after the region is G. -/
theorem final (c : Dev nD) : (dats m 0 c).arrAt 7 cfg0.N = G m c :=
  (dats m 0 c).arrAt_eq_of_cover 7 (G m c) (fun t _ => flushed_eq m c t) (cover)

/-! ## The parameter arrays as the six host lines before the region leave them -/

theorem V_w1 (c : Dev nD) : (V m c main_v0 : S500x256.Idx → EReal)
    = transpose S500x256 [1, 0] (m ((c : Thread nD τ).loc main_arg2)) transposes_S256x500_S500x256_1_0 := by
  dsimp only [V, V0]
  simp only [main_part0_ops0, List.flatten_cons, List.flatten_nil, List.append_nil]
  after_results <;> rfl
theorem V_w2 (c : Dev nD) : (V m c main_v1 : S256x256.Idx → EReal)
    = transpose S256x256 [1, 0] (m ((c : Thread nD τ).loc main_arg4)) transposes_S256x256_S256x256_1_0 := by
  dsimp only [V, V0]
  simp only [main_part0_ops0, List.flatten_cons, List.flatten_nil, List.append_nil]
  after_results <;> rfl
theorem V_w3 (c : Dev nD) : (V m c main_v2 : S256x48.Idx → EReal)
    = transpose S256x48 [1, 0] (m ((c : Thread nD τ).loc main_arg6)) transposes_S48x256_S256x48_1_0 := by
  dsimp only [V, V0]
  simp only [main_part0_ops0, List.flatten_cons, List.flatten_nil, List.append_nil]
  after_results <;> rfl
theorem V_b1 (c : Dev nD) : (V m c main_v3 : S1x256.Idx → EReal)
    = shapeCast S1x256 (m ((c : Thread nD τ).loc main_arg3)) shapeCasts_S256_S1x256 := by
  dsimp only [V, V0]
  simp only [main_part0_ops0, List.flatten_cons, List.flatten_nil, List.append_nil]
  after_results <;> rfl
theorem V_b2 (c : Dev nD) : (V m c main_v4 : S1x256.Idx → EReal)
    = shapeCast S1x256 (m ((c : Thread nD τ).loc main_arg5)) shapeCasts_S256_S1x256 := by
  dsimp only [V, V0]
  simp only [main_part0_ops0, List.flatten_cons, List.flatten_nil, List.append_nil]
  after_results <;> rfl
theorem V_b3 (c : Dev nD) : (V m c main_v5 : S1x48.Idx → EReal)
    = shapeCast S1x48 (m ((c : Thread nD τ).loc main_arg7)) shapeCasts_S48_S1x48 := by
  dsimp only [V, V0]
  simp only [main_part0_ops0, List.flatten_cons, List.flatten_nil, List.append_nil]
  after_results <;> rfl

/-- The output array after the region is the perceptron of the arguments: the rows x, the weight matrices transposed,
    the biases. -/
theorem out_value (c : Dev nD) : (dats m 0 c).arrAt 7 cfg0.N
    = mlp 50000 (m ((c : Thread nD τ).loc main_arg0))
        (transpose S500x256 [1, 0] (m ((c : Thread nD τ).loc main_arg2)) transposes_S256x500_S500x256_1_0) (m ((c : Thread nD τ).loc main_arg3))
        (transpose S256x256 [1, 0] (m ((c : Thread nD τ).loc main_arg4)) transposes_S256x256_S256x256_1_0) (m ((c : Thread nD τ).loc main_arg5))
        (transpose S256x48 [1, 0] (m ((c : Thread nD τ).loc main_arg6)) transposes_S48x256_S256x48_1_0) (m ((c : Thread nD τ).loc main_arg7)) := by
  rw [final]
  unfold G
  rw [V_early m c main_arg0 (by decide), V_w1, V_w2, V_w3, V_b1, V_b2, V_b3, rowVec_shapeCast, rowVec_shapeCast, rowVec_shapeCast]

end Cert.KernelIdeal.MlpValue

end
-- ==== Proof.KernelResult.lean ====
/-
  The kernel program's result, at the ideal values: the later lines run over the buffers as the region leaves them —
  its output array at the perceptron of the arguments, the edge array as launched — so the result is the propagation
  of the edge array and that perceptron.
-/
import proofs.«150733_j30562987278368_2_alg».proof.Proof.KernelIdealTail
import proofs.«150733_j30562987278368_2_alg».proof.Proof.KernelMlpValue

set_option maxRecDepth 16384

noncomputable section

namespace Cert.KernelIdeal.ResultValue

open Cert.KernelIdeal Cert.KernelIdeal.Gen Cert.KernelIdeal.Around Cert.KernelIdeal.Run Cert.KernelIdeal.Propagate
open Cert.KernelIdeal.TailValue Cert.KernelIdeal.MlpValue
open Idealize.ShloMosaic Idealize.ShloMosaic.TcCoe Idealize.SL.Sem Cert.Mlp

variable (m : (ℓ : Loc nD τ sig) → Buf (Elt Ideal) ℓ)

theorem result_value (c : Dev nD) :
    Pipeline.afterTail₀ cfgs (dats m) 0 (V0 m) tailLines c main_v207
      = propagate (m ((c : Thread nD τ).loc main_arg1))
          (mlp 50000 (m ((c : Thread nD τ).loc main_arg0))
            (transpose S500x256 [1, 0] (m ((c : Thread nD τ).loc main_arg2)) transposes_S256x500_S500x256_1_0) (m ((c : Thread nD τ).loc main_arg3))
            (transpose S256x256 [1, 0] (m ((c : Thread nD τ).loc main_arg4)) transposes_S256x256_S256x256_1_0) (m ((c : Thread nD τ).loc main_arg5))
            (transpose S256x48 [1, 0] (m ((c : Thread nD τ).loc main_arg6)) transposes_S48x256_S256x48_1_0) (m ((c : Thread nD τ).loc main_arg7))) := by
  unfold Pipeline.afterTail₀
  rw [tail_value]
  have he : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by decide)).trans (V_early m c main_arg1 (by decide))
  have hh : Pipeline.withArrays (cfgs 0).spec c (V0 m c) (fun w => (dats m 0 c).arrAt w (cfgs 0).N) (Proc.devRef .tc main_v6)
      = (dats m 0 c).arrAt 7 cfg0.N :=
    Pipeline.withArrays_arr spec0 launch0.win.arr_inj c _ _ 7
  rw [he, hh, out_value]

end Cert.KernelIdeal.ResultValue

end
-- ==== Proof.PropagateR.lean ====
/-
  The propagation that follows the perceptron, as one function of the edge array e : i32[2, 1600000] and the node
  features h : f32[50000, 48], written with the program's own host operations.

  Row 1 of e lists the edges' targets and row 0 their sources; to both the self loops 0 .. 49999 are appended.  deg(n)
  counts the edges into n (a scatter-add of ones), dinv(n) is deg(n)^(-1/2) where deg(n) > 0 and 0 elsewhere, and an
  edge's weight is dinv(source) * dinv(target).  One step takes h' to  0.9 * A(h') + 0.1 * h,  where row n of A(h') is
  the sum over the edges into n of weight * (row source of h') (a gather of rows, a product, a scatter-add into zeros);
  the result is ten steps from h.  Indices pass through the negative-index wrap (i < 0 reads i + 50000) the gathers
  are lowered with.  Everything after the two endpoint vectors is stated over them as parameters (s the sources, d the
  targets).  Nothing is proved here about what these operations compute: both programs run exactly these lines, so it
  is enough to name the function.
-/
import proofs.«150733_j30562987278368_2_alg».proof.ReferenceIdeal
import proofs.«150733_j30562987278368_2_alg».proof.Proof.Gen.ReferenceIdeal

noncomputable section

namespace Cert.ReferenceIdeal.Propagate

open Cert.ReferenceIdeal Cert.ReferenceIdeal.Gen Idealize.ShloMosaic Idealize.ShloMosaic.TcCoe

variable {F : FTy → Type} [FloatOps F]

/-- The edges' sources followed by the self loops. -/
def srcs (e : (⟨S2x1600000, .i32⟩ : BufTy).Contents (Elt F)) : (⟨S1650000, .i32⟩ : BufTy).Contents (Elt F) :=
  concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0

/-- The edges' targets followed by the self loops. -/
def dsts (e : (⟨S2x1600000, .i32⟩ : BufTy).Contents (Elt F)) : (⟨S1650000, .i32⟩ : BufTy).Contents (Elt F) :=
  concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0

/-- The negative-index wrap of a gather's indices: i < 0 reads i + 50000. -/
def wrap (v : (⟨S1650000, .i32⟩ : BufTy).Contents (Elt F)) : (⟨S1650000, .i32⟩ : BufTy).Contents (Elt F) :=
  select (cmpi .slt v (broadcastInDim S1650000 ![] bcast_S_S1650000 (constantI S_ 32 0#32))) (addi v (broadcastInDim S1650000 ![] bcast_S_S1650000 (constantI S_ 32 50000#32))) v

/-- deg(n): the number of edges into n, self loop included. -/
def deg (d : (⟨S1650000, .i32⟩ : BufTy).Contents (Elt F)) : (⟨S50000, .f32⟩ : BufTy).Contents (Elt F) :=
  Host.scatterAdd scatter_S50000_S1650000x1_S1650000_n_0_0_1 (broadcastInDim S50000 ![] bcast_S_S50000 (constant S_ .f32 0x00000000#32)) (broadcastInDim S1650000x1 ![0] bcast_S1650000_S1650000x1_0 d) (broadcastInDim S1650000 ![] bcast_S_S1650000 (constant S_ .f32 0x3F800000#32))

/-- dinv(n): deg(n)^(-1/2) where deg(n) > 0, else 0. -/
def dinv (d : (⟨S1650000, .i32⟩ : BufTy).Contents (Elt F)) : (⟨S50000, .f32⟩ : BufTy).Contents (Elt F) :=
  select (cmpf .ogt (deg d) (broadcastInDim S50000 ![] bcast_S_S50000 (constant S_ .f32 0x00000000#32))) (Host.rsqrt (deg d)) (broadcastInDim S50000 ![] bcast_S_S50000 (id (constant S_ .f32 0x00000000#32)))

/-- An edge's weight dinv(source) * dinv(target), as a column. -/
def weight (s d : (⟨S1650000, .i32⟩ : BufTy).Contents (Elt F)) : (⟨S1650000x1, .f32⟩ : BufTy).Contents (Elt F) :=
  broadcastInDim S1650000x1 ![0] bcast_S1650000_S1650000x1_0 (mulf (Host.gather gather_S50000_S1650000x1_S1650000_n_0_n_n_0_1_1 (dinv d) (broadcastInDim S1650000x1 ![0] bcast_S1650000_S1650000x1_0 (wrap s))) (Host.gather gather_S50000_S1650000x1_S1650000_n_0_n_n_0_1_1 (dinv d) (broadcastInDim S1650000x1 ![0] bcast_S1650000_S1650000x1_0 (wrap d))))

/-- One step: 0.9 * (the weighted sum of the sources' rows of h' over the edges into each node) + 0.1 * h. -/
def step (s d : (⟨S1650000, .i32⟩ : BufTy).Contents (Elt F)) (h h' : (⟨S50000x48, .f32⟩ : BufTy).Contents (Elt F)) : (⟨S50000x48, .f32⟩ : BufTy).Contents (Elt F) :=
  addf (mulf (broadcastInDim S50000x48 ![] bcast_S_S50000x48 (constant S_ .f32 0x3F666666#32)) (Host.scatterAdd scatter_S50000x48_S1650000x1_S1650000x48_1_0_0_1 (broadcastInDim S50000x48 ![] bcast_S_S50000x48 (constant S_ .f32 0x00000000#32)) (broadcastInDim S1650000x1 ![0] bcast_S1650000_S1650000x1_0 d) (mulf (Host.gather gather_S50000x48_S1650000x1_S1650000x48_1_0_n_n_0_1_148 h' (broadcastInDim S1650000x1 ![0] bcast_S1650000_S1650000x1_0 (wrap s))) (broadcastInDim S1650000x48 ![0, 1] bcast_S1650000x1_S1650000x48_0_1 (weight s d))))) (mulf (broadcastInDim S50000x48 ![] bcast_S_S50000x48 (constant S_ .f32 0x3DCCCCCD#32)) h)

/-- Ten steps from h, over given endpoint vectors. -/
def propagateOf (s d : (⟨S1650000, .i32⟩ : BufTy).Contents (Elt F)) (h : (⟨S50000x48, .f32⟩ : BufTy).Contents (Elt F)) : (⟨S50000x48, .f32⟩ : BufTy).Contents (Elt F) :=
  step s d h (step s d h (step s d h (step s d h (step s d h (step s d h (step s d h (step s d h (step s d h (step s d h h)))))))))

/-- Ten steps from h along the edges of e. -/
def propagate (e : (⟨S2x1600000, .i32⟩ : BufTy).Contents (Elt F)) (h : (⟨S50000x48, .f32⟩ : BufTy).Contents (Elt F)) : (⟨S50000x48, .f32⟩ : BufTy).Contents (Elt F) :=
  propagateOf (srcs e) (dsts e) h

end Cert.ReferenceIdeal.Propagate

end
-- ==== Proof.ReferenceRun.lean ====
/-
  The reference's run, read: it is host lines only.  Its first 21 lines are the perceptron (three dense layers, the
  first two under relu), the next seven cut the edge array's rows and append the self loops, and everything after them
  is the propagation over those two endpoint vectors from the perceptron's output.  No line writes an argument: each
  writes one result buffer of its own, and those come after the eight argument buffers.
-/
import proofs.«150733_j30562987278368_2_alg».proof.Proof.ReferenceOps
import proofs.«150733_j30562987278368_2_alg».proof.Proof.PropagateR
import Idealize.ShloMosaic.Lib.Pipeline.Frame

set_option maxRecDepth 16384

noncomputable section

namespace Cert.ReferenceIdeal.RefRun

open Cert.ReferenceIdeal Cert.ReferenceIdeal.Gen Cert.ReferenceIdeal.ValueP Cert.ReferenceIdeal.Propagate
open Idealize.ShloMosaic Idealize.ShloMosaic.TcCoe Idealize.SL.Sem Idealize.ShloMosaic.StableHlo

variable {F : FTy → Type} [FloatOps F]

/-- The reference's perceptron as its lines compose: x @ W1^T + b1 under relu, @ W2^T + b2 under relu, @ W3^T + b3,
    each bias broadcast to one row and then down the rows, relu the maximum with a broadcast zero. -/
def mlpHost (x : (⟨S50000x500, .f32⟩ : BufTy).Contents (Elt F)) (W1 : (⟨S256x500, .f32⟩ : BufTy).Contents (Elt F))
    (b1 : (⟨S256, .f32⟩ : BufTy).Contents (Elt F)) (W2 : (⟨S256x256, .f32⟩ : BufTy).Contents (Elt F))
    (b2 : (⟨S256, .f32⟩ : BufTy).Contents (Elt F)) (W3 : (⟨S48x256, .f32⟩ : BufTy).Contents (Elt F))
    (b3 : (⟨S48, .f32⟩ : BufTy).Contents (Elt F)) : (⟨S50000x48, .f32⟩ : BufTy).Contents (Elt F) :=
  addf (Host.dotGeneral dot_S50000x256_S256x48_S50000x48_1_0_0_1_n_n none
      (maximumf (addf (Host.dotGeneral dot_S50000x256_S256x256_S50000x256_1_0_0_1_n_n none
          (maximumf (addf (Host.dotGeneral dot_S50000x500_S500x256_S50000x256_1_0_0_1_n_n none x
                (transpose S500x256 [1, 0] W1 transposes_S256x500_S500x256_1_0))
              (broadcastInDim S50000x256 ![0, 1] bcast_S1x256_S50000x256_0_1 (broadcastInDim S1x256 ![1] bcast_S256_S1x256_1 b1)))
            (broadcastInDim S50000x256 ![] bcast_S_S50000x256 (constant S_ .f32 0x00000000#32)))
          (transpose S256x256 [1, 0] W2 transposes_S256x256_S256x256_1_0))
          (broadcastInDim S50000x256 ![0, 1] bcast_S1x256_S50000x256_0_1 (broadcastInDim S1x256 ![1] bcast_S256_S1x256_1 b2)))
        (broadcastInDim S50000x256 ![] bcast_S_S50000x256 (constant S_ .f32 0x00000000#32)))
      (transpose S256x48 [1, 0] W3 transposes_S48x256_S256x48_1_0))
    (broadcastInDim S50000x48 ![0, 1] bcast_S1x48_S50000x48_0_1 (broadcastInDim S1x48 ![1] bcast_S48_S1x48_1 b3))

/-- The lines in three stretches. -/
theorem ops_split : (ops : List (HloOp τ sig (Elt F)))
    = (ops : List (HloOp τ sig (Elt F))).take 21 ++ (((ops : List (HloOp τ sig (Elt F))).drop 21).take 7 ++ (ops : List (HloOp τ sig (Elt F))).drop 28) := by
  rfl

set_option maxHeartbeats 20000000 in
/-- The first 21 lines leave the perceptron of the arguments in its result buffer. -/
theorem mlp_value (V : Valuation τ sig (Elt F)) :
    after ((ops : List (HloOp τ sig (Elt F))).take 21) V (Proc.devRef .tc main_v16)
      = mlpHost (V (Proc.devRef .tc main_arg0)) (V (Proc.devRef .tc main_arg2)) (V (Proc.devRef .tc main_arg3)) (V (Proc.devRef .tc main_arg4))
          (V (Proc.devRef .tc main_arg5)) (V (Proc.devRef .tc main_arg6)) (V (Proc.devRef .tc main_arg7)) := by
  simp only [ops, List.take_succ_cons, List.take_zero]
  after_results_simp <;> rfl

set_option maxHeartbeats 20000000 in
/-- and leave the edge array where it is. -/
theorem mlp_edges (V : Valuation τ sig (Elt F)) :
    after ((ops : List (HloOp τ sig (Elt F))).take 21) V (Proc.devRef .tc main_arg1) = V (Proc.devRef .tc main_arg1) := by
  simp only [ops, List.take_succ_cons, List.take_zero]
  after_results_simp <;> rfl

set_option maxHeartbeats 20000000 in
theorem head_srcs (V : Valuation τ sig (Elt F)) :
    after (((ops : List (HloOp τ sig (Elt F))).drop 21).take 7) V (Proc.devRef .tc main_v22) = srcs (V (Proc.devRef .tc main_arg1)) := by
  simp only [ops, List.drop_succ_cons, List.drop_zero, List.take_succ_cons, List.take_zero]
  after_results <;> rfl

set_option maxHeartbeats 20000000 in
theorem head_dsts (V : Valuation τ sig (Elt F)) :
    after (((ops : List (HloOp τ sig (Elt F))).drop 21).take 7) V (Proc.devRef .tc main_v23) = dsts (V (Proc.devRef .tc main_arg1)) := by
  simp only [ops, List.drop_succ_cons, List.drop_zero, List.take_succ_cons, List.take_zero]
  after_results <;> rfl

set_option maxHeartbeats 20000000 in
theorem head_h (V : Valuation τ sig (Elt F)) :
    after (((ops : List (HloOp τ sig (Elt F))).drop 21).take 7) V (Proc.devRef .tc main_v16) = V (Proc.devRef .tc main_v16) := by
  simp only [ops, List.drop_succ_cons, List.drop_zero, List.take_succ_cons, List.take_zero]
  after_results <;> rfl

set_option maxHeartbeats 100000000 in
/-- All the other lines: ten steps over the two endpoint vectors, from the perceptron's output. -/
theorem rest_value (V : Valuation τ sig (Elt F)) :
    after ((ops : List (HloOp τ sig (Elt F))).drop 28) V (Proc.devRef .tc main_v217)
      = propagateOf (V (Proc.devRef .tc main_v22)) (V (Proc.devRef .tc main_v23)) (V (Proc.devRef .tc main_v16)) := by
  simp only [ops, List.drop_succ_cons, List.drop_zero]
  after_results_simp <;> rfl

/-- The result buffer after all the lines. -/
theorem value (L : Valuation τ sig (Elt F)) :
    after (ops : List (HloOp τ sig (Elt F))) L (Proc.devRef .tc main_v217)
      = propagate (L (Proc.devRef .tc main_arg1)) (mlpHost (L (Proc.devRef .tc main_arg0)) (L (Proc.devRef .tc main_arg2)) (L (Proc.devRef .tc main_arg3))
          (L (Proc.devRef .tc main_arg4)) (L (Proc.devRef .tc main_arg5)) (L (Proc.devRef .tc main_arg6)) (L (Proc.devRef .tc main_arg7))) := by
  rw [ops_split, after_append, after_append, rest_value, head_srcs, head_dsts, head_h, mlp_value, mlp_edges]
  rfl

/-! ## No line writes an argument -/

/-- A line whose one written buffer comes after the eight arguments. -/
structure PastArgs (op : HloOp τ sig (Elt F)) : Prop where
  past : ∀ r : Ref sig .tc, Proc.devRef (τ := τ) .tc r ∈ op.writes → 8 ≤ r.idx.val

theorem PastArgs.of (op : HloOp τ sig (Elt F)) (y : Ref sig .tc) (hw : op.writes = {Proc.devRef .tc y}) (hy : 8 ≤ y.idx.val) : PastArgs op :=
  ⟨fun r hr => by
    rw [hw, Finset.mem_singleton] at hr
    rw [Proc.devRef_injective _ hr]; exact hy⟩

local macro "wr" : term => `(PastArgs.of _ _ rfl (by decide))

set_option maxHeartbeats 40000000 in
theorem ops_past : (ops : List (HloOp τ sig (Elt F))).Forall PastArgs :=
  ⟨wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr⟩

/-- An argument's buffer is as launched after all the lines. -/
theorem kept (L : Valuation τ sig (Elt F)) (r : Ref sig .tc) (hr : r.idx.val < 8) :
    after (ops : List (HloOp τ sig (Elt F))) L (Proc.devRef .tc r) = L (Proc.devRef .tc r) :=
  after_of_forall_not_mem _ _ fun op hop hmem => by
    have := ((List.forall_iff_forall_mem.mp ops_past) op hop).past r hmem
    omega

/-! ## The run -/

/-- Every weakly fair execution of the reference ends, its result at the propagation of the edge array and the
    perceptron of the other arguments, the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v217)
        = propagate (m ((c.tc : Thread nD τ).loc main_arg1)) (mlpHost (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v217).trans ((value _).trans rfl),
      (h c main_arg0).trans ((kept _ main_arg0 (by decide)).trans rfl),
      (h c main_arg1).trans ((kept _ main_arg1 (by decide)).trans rfl),
      (h c main_arg2).trans ((kept _ main_arg2 (by decide)).trans rfl),
      (h c main_arg3).trans ((kept _ main_arg3 (by decide)).trans rfl),
      (h c main_arg4).trans ((kept _ main_arg4 (by decide)).trans rfl),
      (h c main_arg5).trans ((kept _ main_arg5 (by decide)).trans rfl),
      (h c main_arg6).trans ((kept _ main_arg6 (by decide)).trans rfl),
      (h c main_arg7).trans ((kept _ main_arg7 (by decide)).trans rfl)⟩)
    (run_seq scopedRefs_eq scopedSems_eq defs main (fun _ => ops) main_eq (fun _ => ops_sub) m ρ)

end Cert.ReferenceIdeal.RefRun

end
-- ==== Proof.ReferenceMlp.lean ====
/-
  The reference's perceptron, at the ideal values, is the perceptron on rows of its argument x, over the transposed
  weight matrices and the biases: each host layer (dot_general, the bias broadcast to one row and down the rows,
  the maximum with a broadcast zero) is the dense layer under relu.
-/
import proofs.«150733_j30562987278368_2_alg».proof.Proof.ReferenceRun
import proofs.«150733_j30562987278368_2_alg».proof.Proof.KernelPayload

noncomputable section

namespace Cert.ReferenceIdeal.RefMlp

open Cert.ReferenceIdeal Cert.ReferenceIdeal.Gen Cert.ReferenceIdeal.RefRun
open Idealize.ShloMosaic Idealize.ShloMosaic.TcCoe Idealize.ShloMosaic.ValueIdx
open Cert.LibDense Cert.LibLayers Cert.Mlp

set_option maxHeartbeats 1000000 in
/-- The first host layer is relu of the dense map of each row. -/
theorem layer1 (x : FVec Ideal S50000x500 .f32) (W1 : FVec Ideal S256x500 .f32) (b1 : FVec Ideal S256 .f32) (W2 : FVec Ideal S256x256 .f32) (b2 : FVec Ideal S256 .f32) (W3 : FVec Ideal S48x256 .f32) (b3 : FVec Ideal S48 .f32) : maximumf (addf (Host.dotGeneral dot_S50000x500_S500x256_S50000x256_1_0_0_1_n_n none x (transpose S500x256 [1, 0] W1 transposes_S256x500_S500x256_1_0)) (broadcastInDim S50000x256 ![0, 1] bcast_S1x256_S50000x256_0_1 (broadcastInDim S1x256 ![1] bcast_S256_S1x256_1 b1))) (broadcastInDim S50000x256 ![] bcast_S_S50000x256 (constant (F := Ideal) S_ .f32 0x00000000#32))
      = reluDense 50000 500 256 x (transpose S500x256 [1, 0] W1 transposes_S256x500_S500x256_1_0) b1 :=
  reluDense_host (A := 50000) (K := 500) (N := 256) x _ b1 bcast_S256_S1x256_1 bcast_S1x256_S50000x256_0_1 bcast_S_S50000x256

set_option maxHeartbeats 1000000 in
/-- The second host layer, likewise, of any input. -/
theorem layer2 (x : FVec Ideal S50000x500 .f32) (W1 : FVec Ideal S256x500 .f32) (b1 : FVec Ideal S256 .f32) (W2 : FVec Ideal S256x256 .f32) (b2 : FVec Ideal S256 .f32) (W3 : FVec Ideal S48x256 .f32) (b3 : FVec Ideal S48 .f32) (v : FVec Ideal S50000x256 .f32) : maximumf (addf (Host.dotGeneral dot_S50000x256_S256x256_S50000x256_1_0_0_1_n_n none v (transpose S256x256 [1, 0] W2 transposes_S256x256_S256x256_1_0)) (broadcastInDim S50000x256 ![0, 1] bcast_S1x256_S50000x256_0_1 (broadcastInDim S1x256 ![1] bcast_S256_S1x256_1 b2))) (broadcastInDim S50000x256 ![] bcast_S_S50000x256 (constant (F := Ideal) S_ .f32 0x00000000#32))
      = reluDense 50000 256 256 v (transpose S256x256 [1, 0] W2 transposes_S256x256_S256x256_1_0) b2 :=
  reluDense_host (A := 50000) (K := 256) (N := 256) v _ b2 bcast_S256_S1x256_1 bcast_S1x256_S50000x256_0_1 bcast_S_S50000x256

set_option maxHeartbeats 1000000 in
/-- The last host layer is the dense map of each row. -/
theorem layer3 (x : FVec Ideal S50000x500 .f32) (W1 : FVec Ideal S256x500 .f32) (b1 : FVec Ideal S256 .f32) (W2 : FVec Ideal S256x256 .f32) (b2 : FVec Ideal S256 .f32) (W3 : FVec Ideal S48x256 .f32) (b3 : FVec Ideal S48 .f32) (v : FVec Ideal S50000x256 .f32) : addf (Host.dotGeneral dot_S50000x256_S256x48_S50000x48_1_0_0_1_n_n none v (transpose S256x48 [1, 0] W3 transposes_S48x256_S256x48_1_0)) (broadcastInDim S50000x48 ![0, 1] bcast_S1x48_S50000x48_0_1 (broadcastInDim S1x48 ![1] bcast_S48_S1x48_1 b3))
      = dense 50000 256 48 v (transpose S256x48 [1, 0] W3 transposes_S48x256_S256x48_1_0) b3 :=
  dense_host (A := 50000) (K := 256) (N := 48) v _ b3 bcast_S48_S1x48_1 bcast_S1x48_S50000x48_0_1

set_option maxHeartbeats 1000000 in
theorem mlpHost_eq (x : FVec Ideal S50000x500 .f32) (W1 : FVec Ideal S256x500 .f32) (b1 : FVec Ideal S256 .f32) (W2 : FVec Ideal S256x256 .f32) (b2 : FVec Ideal S256 .f32) (W3 : FVec Ideal S48x256 .f32) (b3 : FVec Ideal S48 .f32) :
    mlpHost (F := Ideal) x W1 b1 W2 b2 W3 b3
      = mlp 50000 x (transpose S500x256 [1, 0] W1 transposes_S256x500_S500x256_1_0) b1
          (transpose S256x256 [1, 0] W2 transposes_S256x256_S256x256_1_0) b2
          (transpose S256x48 [1, 0] W3 transposes_S48x256_S256x48_1_0) b3 := by
  unfold mlpHost mlp
  rw [layer1 x W1 b1 W2 b2 W3 b3, layer2 x W1 b1 W2 b2 W3 b3, layer3 x W1 b1 W2 b2 W3 b3]

end Cert.ReferenceIdeal.RefMlp

end
-- ==== Proof.PropagateSame.lean ====
/-
  The propagation written in the kernel program's vocabulary and in the reference's is one function: the two programs
  print the same host lines with the same dimension numbers, so each piece unfolds to the same term.
-/
import proofs.«150733_j30562987278368_2_alg».proof.Proof.PropagateK
import proofs.«150733_j30562987278368_2_alg».proof.Proof.PropagateR

noncomputable section

namespace Cert.PropagateSame

open Idealize.ShloMosaic Idealize.ShloMosaic.TcCoe

variable {F : FTy → Type} [FloatOps F]

theorem srcs_eq (e : (⟨Cert.KernelIdeal.S2x1600000, .i32⟩ : BufTy).Contents (Elt F)) :
    Cert.ReferenceIdeal.Propagate.srcs (F := F) e = Cert.KernelIdeal.Propagate.srcs e := rfl
theorem dsts_eq (e : (⟨Cert.KernelIdeal.S2x1600000, .i32⟩ : BufTy).Contents (Elt F)) :
    Cert.ReferenceIdeal.Propagate.dsts (F := F) e = Cert.KernelIdeal.Propagate.dsts e := rfl
theorem wrap_eq (v : (⟨Cert.KernelIdeal.S1650000, .i32⟩ : BufTy).Contents (Elt F)) :
    Cert.ReferenceIdeal.Propagate.wrap (F := F) v = Cert.KernelIdeal.Propagate.wrap v := rfl
theorem deg_eq (d : (⟨Cert.KernelIdeal.S1650000, .i32⟩ : BufTy).Contents (Elt F)) :
    Cert.ReferenceIdeal.Propagate.deg (F := F) d = Cert.KernelIdeal.Propagate.deg d := rfl
theorem dinv_eq (d : (⟨Cert.KernelIdeal.S1650000, .i32⟩ : BufTy).Contents (Elt F)) :
    Cert.ReferenceIdeal.Propagate.dinv (F := F) d = Cert.KernelIdeal.Propagate.dinv d := rfl
theorem weight_eq (s d : (⟨Cert.KernelIdeal.S1650000, .i32⟩ : BufTy).Contents (Elt F)) :
    Cert.ReferenceIdeal.Propagate.weight (F := F) s d = Cert.KernelIdeal.Propagate.weight s d := rfl
theorem step_eq (s d : (⟨Cert.KernelIdeal.S1650000, .i32⟩ : BufTy).Contents (Elt F)) (h h' : (⟨Cert.KernelIdeal.S50000x48, .f32⟩ : BufTy).Contents (Elt F)) :
    Cert.ReferenceIdeal.Propagate.step (F := F) s d h h' = Cert.KernelIdeal.Propagate.step s d h h' := rfl

/-- Ten steps in either vocabulary. -/
theorem propagateOf_eq (s d : (⟨Cert.KernelIdeal.S1650000, .i32⟩ : BufTy).Contents (Elt F)) (h : (⟨Cert.KernelIdeal.S50000x48, .f32⟩ : BufTy).Contents (Elt F)) :
    Cert.ReferenceIdeal.Propagate.propagateOf (F := F) s d h = Cert.KernelIdeal.Propagate.propagateOf s d h := by
  unfold Cert.ReferenceIdeal.Propagate.propagateOf Cert.KernelIdeal.Propagate.propagateOf
  simp only [step_eq]

theorem propagate_eq (e : (⟨Cert.KernelIdeal.S2x1600000, .i32⟩ : BufTy).Contents (Elt F)) (h : (⟨Cert.KernelIdeal.S50000x48, .f32⟩ : BufTy).Contents (Elt F)) :
    Cert.ReferenceIdeal.Propagate.propagate (F := F) e h = Cert.KernelIdeal.Propagate.propagate e h := by
  unfold Cert.ReferenceIdeal.Propagate.propagate Cert.KernelIdeal.Propagate.propagate
  rw [propagateOf_eq, srcs_eq, dsts_eq]

end Cert.PropagateSame

end
-- ==== Proof.lean ====
/-
  APPNP: a three-layer perceptron on 50000 node rows (500 -> 256 -> 256 -> 48, relu after the first two layers),
  followed by ten steps  h' := 0.9 * A h' + 0.1 * h  of propagation along 1.6 million edges and the self loops, A the
  adjacency weighted by deg^(-1/2) at both ends.

  The kernel program computes the perceptron in one region, 25 blocks of 2000 rows, with operands narrowed to bf16
  before each product; the reference computes it with three host matrix products.  At the ideal values narrowing is the
  identity and both products are the sums  sum_k x(r, k) * w(n, k),  so the two perceptrons are one function of the
  arguments — no law of arithmetic is needed beyond what identifies the two spellings of a layer, and the inputs' being
  finite is not used.  The propagation is host lines in both programs, the same lines, so both results are the same
  function of the edge array and the perceptron's output.

  Frames: each kernel program runs its region under the library's launch theorem for a region between host lines (the
  body's triple, the later lines' write sets), and the reference is host lines only; no line writes an argument.
  The ideal pass rewrote nothing, so the kernel's idealization is its own text read at the ideal values.
-/
import proofs.«150733_j30562987278368_2_alg».proof.Defs
import proofs.«150733_j30562987278368_2_alg».proof.Proof.Gen.Kernel
import proofs.«150733_j30562987278368_2_alg».proof.Proof.Gen.KernelIdeal
import proofs.«150733_j30562987278368_2_alg».proof.Proof.Gen.ReferenceIdeal
import proofs.«150733_j30562987278368_2_alg».proof.Proof.Gen.Pre_finite_inputs
import proofs.«150733_j30562987278368_2_alg».proof.Proof.KernelRun
import proofs.«150733_j30562987278368_2_alg».proof.Proof.KernelIdealRun
import proofs.«150733_j30562987278368_2_alg».proof.Proof.KernelResult
import proofs.«150733_j30562987278368_2_alg».proof.Proof.ReferenceRun
import proofs.«150733_j30562987278368_2_alg».proof.Proof.ReferenceMlp
import proofs.«150733_j30562987278368_2_alg».proof.Proof.PropagateSame

set_option maxRecDepth 16384

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Run.frame m ρ

/-- So does its reading at the ideal values. -/
theorem frame_ki : Cert.frame_KernelIdeal := fun m ρ _ => Cert.KernelIdeal.Run.frame m ρ

/-- The reference is host lines only: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end at the propagation of the edge array and the perceptron of the other arguments. -/
theorem algebraic : Cert.algebraic_KernelIdeal_ReferenceIdeal := by
  intro m ρ m' ρ' _ hagree
  refine ⟨_, (θ_run Cert.KernelIdeal.defs _ _).mono
      (fun _ h c => ⟨(h c).1.trans (Cert.KernelIdeal.ResultValue.result_value m c), (h c).2⟩)
      (Cert.KernelIdeal.Run.run_args (F := Ideal) m ρ), ?_⟩
  refine (θ_run Cert.ReferenceIdeal.defs _ _).mono (fun _ h c => ⟨(h c).1.trans ?_, (h c).2⟩)
    (Cert.ReferenceIdeal.RefRun.run (F := Ideal) m' ρ')
  rw [Cert.ReferenceIdeal.RefMlp.mlpHost_eq, Cert.PropagateSame.propagate_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
